-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x768 : Shape := ⟨3, ![32, 1024, 768]⟩
abbrev S64x768 : Shape := ⟨2, ![64, 768]⟩
abbrev S_ : Shape := ⟨0, ![]⟩

class Facts : Prop where
  bcast_S_S32x1024x768 : S_.BroadcastsInDim S32x1024x768 (![] : Fin 0 → Fin S32x1024x768.rank)
  reducesTo_S32x1024x768_S_d0_1_2 : S32x1024x768.ReducesTo [0, 1, 2] S_
  h_S_ : 0 < S_.numel
  bcast_S_S64x768 : S_.BroadcastsInDim S64x768 (![] : Fin 0 → Fin S64x768.rank)
  reducesTo_S64x768_S_d0_1 : S64x768.ReducesTo [0, 1] S_

variable [Facts]

def fn_part1 {F : FTy → Type} [FloatOps F] (main_v13 : IVec S_ 1) (main_v16 : IVec S64x768 1) : IVec S_ 1 :=
  let main_c_5 : IVec S_ 1 := constantI S_ 1 1#1
  let main_v17 : IVec S_ 1 := (fun x v => Host.reduce IntOp.andi x v reducesTo_S64x768_S_d0_1 h_S_) main_v16 main_c_5
  let main_v18 : IVec S_ 1 := andi main_v13 main_v17
  main_v18

def fn {F : FTy → Type} [FloatOps F] (main_arg0 : FVec F S32x1024x768 .f32) (main_arg1 : FVec F S64x768 .f32) (main_arg2 : FVec F S64x768 .f32) (main_arg3 : FVec F S64x768 .f32) : IVec S_ 1 :=
  let main_v0 : FVec F S32x1024x768 .f32 := Host.absf main_arg0
  let main_cst : FVec F S_ .f32 := constant S_ .f32 0x7F800000#32
  let main_v1 : FVec F S32x1024x768 .f32 := broadcastInDim S32x1024x768 ![] bcast_S_S32x1024x768 main_cst
  let main_v2 : IVec S32x1024x768 1 := cmpf .olt main_v0 main_v1
  let main_c : IVec S_ 1 := constantI S_ 1 1#1
  let main_v3 : IVec S_ 1 := (fun x v => Host.reduce IntOp.andi x v reducesTo_S32x1024x768_S_d0_1_2 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S64x768 .f32 := Host.absf main_arg2
  let main_cst_2 : FVec F S_ .f32 := constant S_ .f32 0x7F800000#32
  let main_v10 : FVec F S64x768 .f32 := broadcastInDim S64x768 ![] bcast_S_S64x768 main_cst_2
  let main_v11 : IVec S64x768 1 := cmpf .olt main_v9 main_v10
  let main_c_3 : IVec S_ 1 := constantI S_ 1 1#1
  let main_v12 : IVec S_ 1 := (fun x v => Host.reduce IntOp.andi x v reducesTo_S64x768_S_d0_1 h_S_) main_v11 main_c_3
  let main_v13 : IVec S_ 1 := andi main_v8 main_v12
  let main_v14 : FVec F S64x768 .f32 := Host.absf main_arg3
  let main_cst_4 : FVec F S_ .f32 := constant S_ .f32 0x7F800000#32
  let main_v15 : FVec F S64x768 .f32 := broadcastInDim S64x768 ![] bcast_S_S64x768 main_cst_4
  let main_v16 : IVec S64x768 1 := cmpf .olt main_v14 main_v15
  fn_part1 (F := F) main_v13 main_v16
-- ==== Kernel.lean ====
abbrev S32x1024x768 : Shape := ⟨3, ![32, 1024, 768]⟩
abbrev S64x768 : Shape := ⟨2, ![64, 768]⟩
abbrev S_ : Shape := ⟨0, ![]⟩
abbrev S128x768 : Shape := ⟨2, ![128, 768]⟩
abbrev S384x768 : Shape := ⟨2, ![384, 768]⟩
abbrev S32x1024x64 : Shape := ⟨3, ![32, 1024, 64]⟩
abbrev S2x1024x768 : Shape := ⟨3, ![2, 1024, 768]⟩
abbrev S2x1024x64 : Shape := ⟨3, ![2, 1024, 64]⟩
abbrev S1024x384 : Shape := ⟨2, ![1024, 384]⟩
abbrev S1x1024 : Shape := ⟨2, ![1, 1024]⟩
abbrev S1x1024x768 : Shape := ⟨3, ![1, 1024, 768]⟩
abbrev S1024x768 : Shape := ⟨2, ![1024, 768]⟩
abbrev S1024x128 : Shape := ⟨2, ![1024, 128]⟩
abbrev S256x128 : Shape := ⟨2, ![256, 128]⟩
abbrev S256x1024 : Shape := ⟨2, ![256, 1024]⟩
abbrev S256x1 : Shape := ⟨2, ![256, 1]⟩
abbrev S256 : Shape := ⟨1, ![256]⟩
abbrev S256x64 : Shape := ⟨2, ![256, 64]⟩
abbrev S1x256x64 : Shape := ⟨3, ![1, 256, 64]⟩

abbrev nBuf : Space → Nat
  | .hbm => 15
  | .vmem => 6
  | .smem => 0
  | _ => 0

abbrev bufTy : (tb : Table) → Fin (tcTables nBuf tb) → BufTy
  | .hbm, ⟨0, _⟩ => ⟨S32x1024x768, .f32⟩
  | .hbm, ⟨1, _⟩ => ⟨S64x768, .f32⟩
  | .hbm, ⟨2, _⟩ => ⟨S64x768, .f32⟩
  | .hbm, ⟨3, _⟩ => ⟨S64x768, .f32⟩
  | .hbm, ⟨4, _⟩ => ⟨S_, .i32⟩
  | .hbm, ⟨5, _⟩ => ⟨S_, .f32⟩
  | .hbm, ⟨6, _⟩ => ⟨S128x768, .f32⟩
  | .hbm, ⟨7, _⟩ => ⟨S_, .i32⟩
  | .hbm, ⟨8, _⟩ => ⟨S_, .f32⟩
  | .hbm, ⟨9, _⟩ => ⟨S128x768, .f32⟩
  | .hbm, ⟨10, _⟩ => ⟨S_, .i32⟩
  | .hbm, ⟨11, _⟩ => ⟨S_, .f32⟩
  | .hbm, ⟨12, _⟩ => ⟨S128x768, .f32⟩
  | .hbm, ⟨13, _⟩ => ⟨S384x768, .f32⟩
  | .hbm, ⟨14, _⟩ => ⟨S32x1024x64, .f32⟩
  | .local _ .vmem, ⟨0, _⟩ => ⟨S2x1024x768, .f32⟩
  | .local _ .vmem, ⟨1, _⟩ => ⟨S2x1024x768, .f32⟩
  | .local _ .vmem, ⟨2, _⟩ => ⟨S384x768, .f32⟩
  | .local _ .vmem, ⟨3, _⟩ => ⟨S2x1024x64, .f32⟩
  | .local _ .vmem, ⟨4, _⟩ => ⟨S2x1024x64, .f32⟩
  | .local _ .vmem, ⟨5, _⟩ => ⟨S1024x384, .f32⟩
  | _, _ => ⟨S32x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v15 : BitVec 32 := Scalar.addi c0_i32 c4_i32
  let c1_i32 : BitVec 32 := 1#32
  ⟨c0_i32, v15, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c256_i32 : BitVec 32 := 256#32
  let v28 : BitVec 32 := Scalar.muli arg5 c256_i32
  v28
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c256_i32 : BitVec 32 := 256#32
  let v28 : BitVec 32 := Scalar.muli arg5 c256_i32
  let v29 : BitVec 32 := v28
  let v30 : Index := Scalar.indexCast v29
  let c0_22 : Index := 0#32
  ![v30.toNat, 0]
def k0_off2 (k0_t1 : Fin k0_t1_loop.trips) : Fin 3 → Nat :=
  let c0_29 : Index := 0#32
  let c0_i32 : BitVec 32 := 0#32
  let c1_i32 : BitVec 32 := 1#32
  let arg5 : BitVec 32 := Scf.iv c0_i32 c1_i32 k0_t1
  let c256_i32 : BitVec 32 := 256#32
  let v28 : BitVec 32 := Scalar.muli arg5 c256_i32
  let v29 : BitVec 32 := v28
  let v56 : Index := Scalar.indexCast v29
  let c0_30 : Index := 0#32
  ![0, v56.toNat, 0]
@[reducible] def k0_t2_loop : Scf.Loop 32 :=
  let c0_i32_18 : BitVec 32 := 0#32
  let c4_i32_19 : BitVec 32 := 4#32
  let v27 : BitVec 32 := Scalar.addi c0_i32_18 c4_i32_19
  let c1_i32_20 : BitVec 32 := 1#32
  ⟨c0_i32_18, v27, c1_i32_20⟩
def k0_mult2 (k0_t2 : Fin k0_t2_loop.trips) : BitVec 32 :=
  let c0_i32_18 : BitVec 32 := 0#32
  let c1_i32_20 : BitVec 32 := 1#32
  let arg5 : BitVec 32 := Scf.iv c0_i32_18 c1_i32_20 k0_t2
  let c256_i32 : BitVec 32 := 256#32
  let v28 : BitVec 32 := Scalar.muli arg5 c256_i32
  v28
def k0_off3 (k0_t2 : Fin k0_t2_loop.trips) : Fin 2 → Nat :=
  let c0_i32_18 : BitVec 32 := 0#32
  let c1_i32_20 : BitVec 32 := 1#32
  let arg5 : BitVec 32 := Scf.iv c0_i32_18 c1_i32_20 k0_t2
  let c256_i32 : BitVec 32 := 256#32
  let v28 : BitVec 32 := Scalar.muli arg5 c256_i32
  let v29 : BitVec 32 := v28
  let v30 : Index := Scalar.indexCast v29
  let c0_22 : Index := 0#32
  ![v30.toNat, 0]
def k0_off4 (k0_t2 : Fin k0_t2_loop.trips) : Fin 3 → Nat :=
  let c1_29 : Index := 1#32
  let c0_i32_18 : BitVec 32 := 0#32
  let c1_i32_20 : BitVec 32 := 1#32
  let arg5 : BitVec 32 := Scf.iv c0_i32_18 c1_i32_20 k0_t2
  let c256_i32 : BitVec 32 := 256#32
  let v28 : BitVec 32 := Scalar.muli arg5 c256_i32
  let v29 : BitVec 32 := v28
  let v56 : Index := Scalar.indexCast v29
  let c0_30 : Index := 0#32
  ![1, v56.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S64x768_S128x768_0640_000 : S64x768.Pads (![0, 0] : Fin 2 → Nat) ![64, 0] ![0, 0] S128x768
  h_S_ : 0 < S_.numel
  concatenates_S128x768_S128x768_S128x768_S384x768_d0 : Shape.Concatenates [S128x768, S128x768, S128x768] S384x768 0
  inb_S384x768_S384x768_0_0 : ∀ a, (![0, 0] : Fin 2 → Nat) a + S384x768.size a ≤ S384x768.size a
  h_S384x768 : 0 < S384x768.numel
  shapeCasts_S384x768_S384x768 : S384x768.ShapeCasts S384x768
  bitsLt_bf16_f32 : FTy.bits .bf16 < FTy.bits .f32
  iota_S1x1024_d1_w32 : S1x1024.Iotas .tc 32 [1]
  inb_S2x1024x768_S1x1024x768_0_0_0 : ∀ a, (![0, 0, 0] : Fin 3 → Nat) a + S1x1024x768.size a ≤ S2x1024x768.size a
  h_S1x1024x768 : 0 < S1x1024x768.numel
  shapeCasts_S1x1024x768_S1024x768 : S1x1024x768.ShapeCasts S1024x768
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  inb_S1024x384_S1024x128_0_128 : ∀ a, (![0, 128] : Fin 2 → Nat) a + S1024x128.size a ≤ S1024x384.size a
  h_S1024x128 : 0 < S1024x128.numel
  inb_S1024x384_S1024x128_0_256 : ∀ a, (![0, 256] : Fin 2 → Nat) a + S1024x128.size a ≤ S1024x384.size a
  h_S256x128 : 0 < S256x128.numel
  iota_S256x1_d0_w32 : S256x1.Iotas .tc 32 [0]
  broadcasts_S256x1_S256x1024 : S256x1.Broadcasts S256x1024
  broadcasts_S1x1024_S256x1024 : S1x1024.Broadcasts S256x1024
  reduces_S256x1024_S256 : S256x1024.Reduces [1] S256
  shapeCasts_S256_S256x1 : S256.ShapeCasts S256x1
  slices_S256x128_o0_0_S256x64 : S256x128.Slices ![0, 0] S256x64
  h_S1x256x64 : 0 < S1x256x64.numel
  shapeCasts_S1x256x64_S256x64 : S1x256x64.ShapeCasts S256x64
  shapeCasts_S256x64_S1x256x64 : S256x64.ShapeCasts S1x256x64
  inb_S2x1024x768_S1x1024x768_1_0_0 : ∀ a, (![1, 0, 0] : Fin 3 → Nat) a + S1x1024x768.size a ≤ S2x1024x768.size a
  dot_S1024x768_S384x768_S1024x384_1_1_0_0_n_n_wf : DotDims.WF S1024x768 S384x768 S1024x384 [1] [1] [0] [0] [] []
  dot_S256x128_S1024x128_S256x1024_1_1_0_0_n_n_wf : DotDims.WF S256x128 S1024x128 S256x1024 [1] [1] [0] [0] [] []
  dot_S256x1024_S1024x128_S256x128_1_0_0_1_n_n_wf : DotDims.WF S256x1024 S1024x128 S256x128 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x128.size a ≤ S1024x384.size a
  k0_off2_inb : ∀ k0_t1 : Fin k0_t1_loop.trips, ∀ a, (k0_off2 k0_t1) a + S1x256x64.size a ≤ S2x1024x64.size a
  k0_t2_ok : k0_t2_loop.OK
  k0_mult2_dvd : ∀ k0_t2 : Fin k0_t2_loop.trips, 256 ∣ (k0_mult2 k0_t2).toNat
  k0_off3_inb : ∀ k0_t2 : Fin k0_t2_loop.trips, ∀ a, (k0_off3 k0_t2) a + S256x128.size a ≤ S1024x384.size a
  k0_off4_inb : ∀ k0_t2 : Fin k0_t2_loop.trips, ∀ a, (k0_off4 k0_t2) a + S1x256x64.size a ≤ S2x1024x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x768.size a ≤ S32x1024x768.size a
  hwx0_0 : ∀ i : grid0.Coords, EltTy.bits .f32 = 32 ∨ (Rect.block (s := S32x1024x768) S2x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x768.size a ≤ S384x768.size a
  hwx0_1 : ∀ i : grid0.Coords, EltTy.bits .f32 = 32 ∨ (Rect.block (s := S384x768) S384x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024x64.size a ≤ S32x1024x64.size a
  hwx0_2 : ∀ i : grid0.Coords, EltTy.bits .f32 = 32 ∨ (Rect.block (s := S32x1024x64) S2x1024x64.size (cc0_transform_2 i) (hinb0_2 i)).WholeWords (EltTy.packing .f32)

variable [Facts₀]

def dot_S1024x768_S384x768_S1024x384_1_1_0_0_n_n : DotDims S1024x768 S384x768 S1024x384 where
  lhsContracting := [1]
  rhsContracting := [1]
  lhsNonContracting := [0]
  rhsNonContracting := [0]
  lhsBatch := []
  rhsBatch := []
  wf := dot_S1024x768_S384x768_S1024x384_1_1_0_0_n_n_wf
def dot_S256x128_S1024x128_S256x1024_1_1_0_0_n_n : DotDims S256x128 S1024x128 S256x1024 where
  lhsContracting := [1]
  rhsContracting := [1]
  lhsNonContracting := [0]
  rhsNonContracting := [0]
  lhsBatch := []
  rhsBatch := []
  wf := dot_S256x128_S1024x128_S256x1024_1_1_0_0_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf

abbrev win0_0 : Pipeline.Window sig grid0 :=
  Pipeline.Window.ofSpec (Memref.whole main_arg0) S2x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S384x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1024x768 : Shape := ⟨3, ![32, 1024, 768]⟩
abbrev S64x768 : Shape := ⟨2, ![64, 768]⟩
abbrev S32x1024x64 : Shape := ⟨3, ![32, 1024, 64]⟩
abbrev S32x1024x1024 : Shape := ⟨3, ![32, 1024, 1024]⟩
abbrev S_ : Shape := ⟨0, ![]⟩
abbrev S1024x1024 : Shape := ⟨2, ![1024, 1024]⟩
abbrev S32x1024 : Shape := ⟨2, ![32, 1024]⟩
abbrev S32x1024x1 : Shape := ⟨3, ![32, 1024, 1]⟩

abbrev nBuf : Space → Nat
  | .hbm => 41
  | .vmem => 0
  | .smem => 0
  | _ => 0

abbrev bufTy : (tb : Table) → Fin (tcTables nBuf tb) → BufTy
  | .hbm, ⟨0, _⟩ => ⟨S32x1024x768, .f32⟩
  | .hbm, ⟨1, _⟩ => ⟨S64x768, .f32⟩
  | .hbm, ⟨2, _⟩ => ⟨S64x768, .f32⟩
  | .hbm, ⟨3, _⟩ => ⟨S64x768, .f32⟩
  | .hbm, ⟨4, _⟩ => ⟨S32x1024x64, .f32⟩
  | .hbm, ⟨5, _⟩ => ⟨S32x1024x64, .f32⟩
  | .hbm, ⟨6, _⟩ => ⟨S32x1024x64, .f32⟩
  | .hbm, ⟨7, _⟩ => ⟨S32x1024x1024, .f32⟩
  | .hbm, ⟨8, _⟩ => ⟨S_, .f32⟩
  | .hbm, ⟨9, _⟩ => ⟨S32x1024x1024, .f32⟩
  | .hbm, ⟨10, _⟩ => ⟨S32x1024x1024, .f32⟩
  | .hbm, ⟨11, _⟩ => ⟨S_, .i1⟩
  | .hbm, ⟨12, _⟩ => ⟨S1024x1024, .i1⟩
  | .hbm, ⟨13, _⟩ => ⟨S1024x1024, .i32⟩
  | .hbm, ⟨14, _⟩ => ⟨S_, .i32⟩
  | .hbm, ⟨15, _⟩ => ⟨S1024x1024, .i32⟩
  | .hbm, ⟨16, _⟩ => ⟨S1024x1024, .i32⟩
  | .hbm, ⟨17, _⟩ => ⟨S1024x1024, .i32⟩
  | .hbm, ⟨18, _⟩ => ⟨S1024x1024, .i1⟩
  | .hbm, ⟨19, _⟩ => ⟨S_, .i1⟩
  | .hbm, ⟨20, _⟩ => ⟨S1024x1024, .i1⟩
  | .hbm, ⟨21, _⟩ => ⟨S1024x1024, .i1⟩
  | .hbm, ⟨22, _⟩ => ⟨S_, .f32⟩
  | .hbm, ⟨23, _⟩ => ⟨S32x1024x1024, .i1⟩
  | .hbm, ⟨24, _⟩ => ⟨S32x1024x1024, .f32⟩
  | .hbm, ⟨25, _⟩ => ⟨S32x1024x1024, .f32⟩
  | .hbm, ⟨26, _⟩ => ⟨S_, .f32⟩
  | .hbm, ⟨27, _⟩ => ⟨S32x1024, .f32⟩
  | .hbm, ⟨28, _⟩ => ⟨S_, .f32⟩
  | .hbm, ⟨29, _⟩ => ⟨S32x1024, .f32⟩
  | .hbm, ⟨30, _⟩ => ⟨S32x1024, .f32⟩
  | .hbm, ⟨31, _⟩ => ⟨S32x1024x1, .f32⟩
  | .hbm, ⟨32, _⟩ => ⟨S32x1024x1024, .f32⟩
  | .hbm, ⟨33, _⟩ => ⟨S32x1024x1024, .f32⟩
  | .hbm, ⟨34, _⟩ => ⟨S32x1024x1024, .f32⟩
  | .hbm, ⟨35, _⟩ => ⟨S_, .f32⟩
  | .hbm, ⟨36, _⟩ => ⟨S32x1024, .f32⟩
  | .hbm, ⟨37, _⟩ => ⟨S32x1024x1, .f32⟩
  | .hbm, ⟨38, _⟩ => ⟨S32x1024x1024, .f32⟩
  | .hbm, ⟨39, _⟩ => ⟨S32x1024x1024, .f32⟩
  | .hbm, ⟨40, _⟩ => ⟨S32x1024x64, .f32⟩
  | _, _ => ⟨S32x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩

abbrev nD : Nat := 1
abbrev τ : Topo := Topo.v7x

variable {F : FTy → Type} [FloatOps F]

class Facts₀ : Prop where
  bcast_S_S32x1024x1024 : S_.BroadcastsInDim S32x1024x1024 (![] : Fin 0 → Fin S32x1024x1024.rank)
  bcast_S_S1024x1024 : S_.BroadcastsInDim S1024x1024 (![] : Fin 0 → Fin S1024x1024.rank)
  bcast_S1024x1024_S32x1024x1024_1_2 : S1024x1024.BroadcastsInDim S32x1024x1024 (![1, 2] : Fin 2 → Fin S32x1024x1024.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  dot_S32x1024x768_S64x768_S32x1024x64_2_1_01_0_n_n_wf : DotDims.WF S32x1024x768 S64x768 S32x1024x64 [2] [1] [0, 1] [0] [] []
  dot_S32x1024x64_S32x1024x64_S32x1024x1024_2_2_1_1_0_0_wf : DotDims.WF S32x1024x64 S32x1024x64 S32x1024x1024 [2] [2] [1] [1] [0] [0]
  dot_S32x1024x1024_S32x1024x64_S32x1024x64_2_1_1_2_0_0_wf : DotDims.WF S32x1024x1024 S32x1024x64 S32x1024x64 [2] [1] [1] [2] [0] [0]

variable [Facts₀]

def dot_S32x1024x768_S64x768_S32x1024x64_2_1_01_0_n_n : DotDims S32x1024x768 S64x768 S32x1024x64 where
  lhsContracting := [2]
  rhsContracting := [1]
  lhsNonContracting := [0, 1]
  rhsNonContracting := [0]
  lhsBatch := []
  rhsBatch := []
  wf := dot_S32x1024x768_S64x768_S32x1024x64_2_1_01_0_n_n_wf
def dot_S32x1024x64_S32x1024x64_S32x1024x1024_2_2_1_1_0_0 : DotDims S32x1024x64 S32x1024x64 S32x1024x1024 where
  lhsContracting := [2]
  rhsContracting := [2]
  lhsNonContracting := [1]
  rhsNonContracting := [1]
  lhsBatch := [0]
  rhsBatch := [0]
  wf := dot_S32x1024x64_S32x1024x64_S32x1024x1024_2_2_1_1_0_0_wf
def dot_S32x1024x1024_S32x1024x64_S32x1024x64_2_1_1_2_0_0 : DotDims S32x1024x1024 S32x1024x64 S32x1024x64 where
  lhsContracting := [2]
  rhsContracting := [1]
  lhsNonContracting := [1]
  rhsNonContracting := [2]
  lhsBatch := [0]
  rhsBatch := [0]
  wf := dot_S32x1024x1024_S32x1024x64_S32x1024x64_2_1_1_2_0_0_wf

class Facts : Prop extends Facts₀ where

variable [Facts]
-- ==== Proof.KernelKit.lean ====
/-
  The launch side of `Kernel`'s frame, written against the pipeline library's frame run.

  @main is seven stretches of host operations — three zero-paddings of a [64,768] weight to [128,768]
  (each a constant, its conversion to a float and the pad) and the concatenation of the three padded
  weights into one [384,768] operand — followed by the one kernel region. `V` is what each buffer
  holds when the region is entered: the launch contents carried through those stretches. None of them
  writes an argument array, so the region finds the four arguments as launched (`V_main_arg0…3`).
  `iblk` is the block of a window's array a grid point works on; an input window's staging buffer
  holds exactly that block whenever the body runs (`before0_0_of`, `before0_1_of`: the weights'
  block is fetched once, at the first point, and stays).  `frame_of` reads the frame claim's
  post (the four arguments unchanged) off the library's post of a frame run.
-/
import proofs.«115010_j69922067579438_2_alg».proof.Proof.Gen.Kernel.Launch
import proofs.«115010_j69922067579438_2_alg».proof.Proof.Gen.Kernel.Skeleton
import proofs.«115010_j69922067579438_2_alg».proof.Proof.Gen.Kernel.Loops
import proofs.«115010_j69922067579438_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The seven stretches of host operations before the region, in order. -/
abbrev stretches : List (List (HloOp τ sig (Elt F))) :=
  [hostOps0, hostOps0_1, hostOps0_2, hostOps0_3, hostOps0_4, hostOps0_5, hostOps0_6]

/-- Core `c`'s buffers when the region is entered: the launch contents after the host stretches. -/
abbrev V (c : Dev nD) (b : Ref sig .tc) : Buf (Elt F) ((c : Thread nD τ).loc b) :=
  StableHlo.after (List.flatten (stretches (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- @main is the host stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (stretches (F := F))
    (by simp only [stretches, List.Forall]; exact ⟨hostOps0_sub, hostOps0_1_sub, hostOps0_2_sub, hostOps0_3_sub, hostOps0_4_sub, hostOps0_5_sub, hostOps0_6_sub⟩)
    (by simp only [stretches, List.Forall]; exact ⟨hostOps0_fresh, hostOps0_1_fresh, hostOps0_2_fresh, hostOps0_3_fresh, hostOps0_4_fresh, hostOps0_5_fresh, hostOps0_6_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [stretches, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [stretches, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [stretches, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [stretches, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations' staging buffer holds the point's pair of sequences whenever the body runs. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The fused weights' staging buffer holds the whole [384,768] operand whenever the body runs. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The memrefs the body is called with -/

/-- One staging buffer of the output window, through which its contents are stated. -/
abbrev VO0_2 : View sig .tc .vmem S2x1024x64 .f32 := (Memref.whole cc0_stg2_0 : Memref sig .tc .vmem S2x1024x64 .f32).view
abbrev ms0_0 (t : Fin cfg0.N) : Memref sig .tc .vmem S2x1024x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S384x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x1024x64 .f32 := win0_2.stage (cfg0.slots t 2)
abbrev hs0_2 (t : Fin cfg0.N) : (ms0_2 t).IsWhole := hstage0_2 ((cfg0.slots t 2).cast nbuf0_2)
/-- The kernel's scratch operand: a whole scoped buffer of its own, passed beside the windows. -/
abbrev scM0_0 : Memref sig .tc .vmem S1024x384 .f32 := Memref.whole cc0_scratch0

/-- The region's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Frm

end
-- ==== Proof.KernelRun.lean ====
/-
  The body of `Kernel`'s kernel run once, on whole staging memrefs at a symbolic grid point.

  The body projects each of the point's two sequences onto the fused weights into its scratch buffer,
  then for each of four tiles of 256 query rows forms the masked scores against all 1024 keys, their
  row softmax and the weighted sum of the values, and stores the tile's [1,256,64] result into the
  output block. Nothing it stores depends on what the output or the scratch held before.
  `kernelRun0` is the run's record: the eight stored pieces (the second sequence's four tiles in
  front of the first's), together with the proof that the body, given the two input blocks at their
  contents and the output and scratch buffers at anything, hands the inputs back as they were, the
  output buffer with exactly those pieces written, and the scratch at some contents.
-/
import proofs.«115010_j69922067579438_2_alg».proof.Proof.KernelKit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0 (c : Dev nD) (i : grid0.Coords) (arg1 : Memref sig .tc .vmem S2x1024x768 .f32) (harg1 : arg1.IsWhole) (arg2 : Memref sig .tc .vmem S384x768 .f32) (harg2 : arg2.IsWhole) (arg3 : Memref sig .tc .vmem S2x1024x64 .f32) (harg3 : arg3.IsWhole) (arg4 : Memref sig .tc .vmem S1024x384 .f32) (harg4 : arg4.IsWhole)
    (x0 : Vec F S2x1024x768 .f32) (x1 : Vec F S384x768 .f32) :
    { L2 : List (View.Piece (Elt F) S2x1024x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ d, owns (c : Thread nD τ) arg4 fullShare d)) -∗ K ⟨⟩))
          ⊢ wp frame (wpE (defs₀ (F := F)) Variants.none c none) E (cc0__attn_kernel i arg1 harg1 arg2 harg2 arg3 harg3 arg4 harg4) K } := by
  refine ⟨?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _, _; isplitr; swap; · iexact HS0
    ipureintro; rfl

end Cert.Kernel.Frm

end
-- ==== Proof.KernelFrame.lean ====
/-
  The frame of `Kernel`: every weakly fair execution of @main terminates without a fault and
  leaves the four argument arrays as they were.

  The eight pieces the body stores (four tiles of 256 rows for each of the point's two sequences)
  tile the [2,1024,64] output block, so what the block holds after the body is those pieces read back,
  whatever it held before (`out0_2`, `outsAt0`). The proof data hand each input window its block
  and the output window that contents; the region's invariant is the scratch buffer at some contents
  and the generator register at some state. The body obligation is the run of the body at a symbolic
  point; the pipeline library's frame run then gives the run of @main, and the frame claim's post is
  read off its post.
-/
import proofs.«115010_j69922067579438_2_alg».proof.Proof.KernelRun

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's eight pieces tile the output block, so they cover it. -/
theorem cover0_2 (c : Dev nD) (i : grid0.Coords) (arg1 : Memref sig .tc .vmem S2x1024x768 .f32) (harg1 : arg1.IsWhole) (arg2 : Memref sig .tc .vmem S384x768 .f32) (harg2 : arg2.IsWhole) (arg3 : Memref sig .tc .vmem S2x1024x64 .f32) (harg3 : arg3.IsWhole) (arg4 : Memref sig .tc .vmem S1024x384 .f32) (harg4 : arg4.IsWhole)
    (x0 : Vec F S2x1024x768 .f32) (x1 : Vec F S384x768 .f32) (y : S2x1024x64.Idx) :
    ∃ pc ∈ (kernelRun0 c i arg1 harg1 arg2 harg2 arg3 harg3 arg4 harg4 x0 x1).1, y ∈ pc.1.set :=
  View.cover_of_tiledL (kernelRun0 c i arg1 harg1 arg2 harg2 arg3 harg3 arg4 harg4 x0 x1).1 S1x256x64.size (by sl_kernel_rfl) y

/-- What the run leaves in the output block: its pieces read back over anything. -/
def out0_2 (c : Dev nD) (i : grid0.Coords) (arg1 : Memref sig .tc .vmem S2x1024x768 .f32) (harg1 : arg1.IsWhole) (arg2 : Memref sig .tc .vmem S384x768 .f32) (harg2 : arg2.IsWhole) (arg3 : Memref sig .tc .vmem S2x1024x64 .f32) (harg3 : arg3.IsWhole) (arg4 : Memref sig .tc .vmem S1024x384 .f32) (harg4 : arg4.IsWhole)
    (x0 : Vec F S2x1024x768 .f32) (x1 : Vec F S384x768 .f32) : Vec F S2x1024x64 .f32 :=
  VO0_2.read (Elt F) (VO0_2.writes (Elt F) VO0_2.junk (kernelRun0 c i arg1 harg1 arg2 harg2 arg3 harg3 arg4 harg4 x0 x1).1)

/-- What the output block holds after the body at point `t`. -/
def outsAt0 (c : Dev nD) (t : Fin cfg0.N) : Vec F S2x1024x64 .f32 :=
  out0_2 c (grid0.coords t) (ms0_0 t) (hs0_0 t) (ms0_1 t) (hs0_1 t) (ms0_2 t) (hs0_2 t) scM0_0 (Memref.isWhole_whole _) (iblk m c 0 t) (iblk m c 1 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at any point: the inputs' memrefs hold their blocks, so the run applies; the invariant lends the
    scratch and takes it back at some contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  unfold outsAt0
  unfold out0_2
  iintro ⟨⟨HS0, Hg⟩, Ho, ⟨%d0, H0⟩, ⟨%d1, H1⟩, ⟨%d2, H2⟩⟩
  iapply ((kernelRun0 c (grid0.coords t) _ _ _ _ _ _ _ _ (iblk m c 0 t) (iblk m c 1 t)).2 Set.univ _)
  isplitl [H0]; · iexact H0
  isplitl [H1]; · iexact H1
  isplitl [H2]; · iexists _; iexact H2
  isplitl [HS0]; · iexact HS0
  iintro ⟨H0, H1, ⟨%e2, H2⟩, HS0⟩
  isplitl [HS0 Hg]
  · isplitl [HS0]; · iexact HS0
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_2 c _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Frm

end
-- ==== Proof.KernelIdealKit.lean ====
/-
  The launch side of `KernelIdeal`'s frame, written against the pipeline library's frame run.

  @main is seven stretches of host operations — three zero-paddings of a [64,768] weight to [128,768]
  (each a constant, its conversion to a float and the pad) and the concatenation of the three padded
  weights into one [384,768] operand — followed by the one kernel region. `V` is what each buffer
  holds when the region is entered: the launch contents carried through those stretches. None of them
  writes an argument array, so the region finds the four arguments as launched (`V_main_arg0…3`).
  `iblk` is the block of a window's array a grid point works on; an input window's staging buffer
  holds exactly that block whenever the body runs (`before0_0_of`, `before0_1_of`: the weights'
  block is fetched once, at the first point, and stays).  `frame_of` reads the frame claim's
  post (the four arguments unchanged) off the library's post of a frame run.
-/
import proofs.«115010_j69922067579438_2_alg».proof.Proof.Gen.KernelIdeal.Launch
import proofs.«115010_j69922067579438_2_alg».proof.Proof.Gen.KernelIdeal.Skeleton
import proofs.«115010_j69922067579438_2_alg».proof.Proof.Gen.KernelIdeal.Loops
import proofs.«115010_j69922067579438_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The seven stretches of host operations before the region, in order. -/
abbrev stretches : List (List (HloOp τ sig (Elt F))) :=
  [hostOps0, hostOps0_1, hostOps0_2, hostOps0_3, hostOps0_4, hostOps0_5, hostOps0_6]

/-- Core `c`'s buffers when the region is entered: the launch contents after the host stretches. -/
abbrev V (c : Dev nD) (b : Ref sig .tc) : Buf (Elt F) ((c : Thread nD τ).loc b) :=
  StableHlo.after (List.flatten (stretches (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- @main is the host stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (stretches (F := F))
    (by simp only [stretches, List.Forall]; exact ⟨hostOps0_sub, hostOps0_1_sub, hostOps0_2_sub, hostOps0_3_sub, hostOps0_4_sub, hostOps0_5_sub, hostOps0_6_sub⟩)
    (by simp only [stretches, List.Forall]; exact ⟨hostOps0_fresh, hostOps0_1_fresh, hostOps0_2_fresh, hostOps0_3_fresh, hostOps0_4_fresh, hostOps0_5_fresh, hostOps0_6_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [stretches, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [stretches, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [stretches, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [stretches, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations' staging buffer holds the point's pair of sequences whenever the body runs. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The fused weights' staging buffer holds the whole [384,768] operand whenever the body runs. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The memrefs the body is called with -/

/-- One staging buffer of the output window, through which its contents are stated. -/
abbrev VO0_2 : View sig .tc .vmem S2x1024x64 .f32 := (Memref.whole cc0_stg2_0 : Memref sig .tc .vmem S2x1024x64 .f32).view
abbrev ms0_0 (t : Fin cfg0.N) : Memref sig .tc .vmem S2x1024x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S384x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x1024x64 .f32 := win0_2.stage (cfg0.slots t 2)
abbrev hs0_2 (t : Fin cfg0.N) : (ms0_2 t).IsWhole := hstage0_2 ((cfg0.slots t 2).cast nbuf0_2)
/-- The kernel's scratch operand: a whole scoped buffer of its own, passed beside the windows. -/
abbrev scM0_0 : Memref sig .tc .vmem S1024x384 .f32 := Memref.whole cc0_scratch0

/-- The region's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Frm

end
-- ==== Proof.KernelIdealRun.lean ====
/-
  The body of `KernelIdeal`'s kernel run once, on whole staging memrefs at a symbolic grid point.

  The body projects each of the point's two sequences onto the fused weights into its scratch buffer,
  then for each of four tiles of 256 query rows forms the masked scores against all 1024 keys, their
  row softmax and the weighted sum of the values, and stores the tile's [1,256,64] result into the
  output block. Nothing it stores depends on what the output or the scratch held before.
  `kernelRun0` is the run's record: the eight stored pieces (the second sequence's four tiles in
  front of the first's), together with the proof that the body, given the two input blocks at their
  contents and the output and scratch buffers at anything, hands the inputs back as they were, the
  output buffer with exactly those pieces written, and the scratch at some contents.
-/
import proofs.«115010_j69922067579438_2_alg».proof.Proof.KernelIdealKit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0 (c : Dev nD) (i : grid0.Coords) (arg1 : Memref sig .tc .vmem S2x1024x768 .f32) (harg1 : arg1.IsWhole) (arg2 : Memref sig .tc .vmem S384x768 .f32) (harg2 : arg2.IsWhole) (arg3 : Memref sig .tc .vmem S2x1024x64 .f32) (harg3 : arg3.IsWhole) (arg4 : Memref sig .tc .vmem S1024x384 .f32) (harg4 : arg4.IsWhole)
    (x0 : Vec F S2x1024x768 .f32) (x1 : Vec F S384x768 .f32) :
    { L2 : List (View.Piece (Elt F) S2x1024x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ d, owns (c : Thread nD τ) arg4 fullShare d)) -∗ K ⟨⟩))
          ⊢ wp frame (wpE (defs₀ (F := F)) Variants.none c none) E (cc0__attn_kernel i arg1 harg1 arg2 harg2 arg3 harg3 arg4 harg4) K } := by
  refine ⟨?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _, _; isplitr; swap; · iexact HS0
    ipureintro; rfl

end Cert.KernelIdeal.Frm

end
-- ==== Proof.KernelIdealFrame.lean ====
/-
  The frame of `KernelIdeal`: every weakly fair execution of @main terminates without a fault and
  leaves the four argument arrays as they were.

  The eight pieces the body stores (four tiles of 256 rows for each of the point's two sequences)
  tile the [2,1024,64] output block, so what the block holds after the body is those pieces read back,
  whatever it held before (`out0_2`, `outsAt0`). The proof data hand each input window its block
  and the output window that contents; the region's invariant is the scratch buffer at some contents
  and the generator register at some state. The body obligation is the run of the body at a symbolic
  point; the pipeline library's frame run then gives the run of @main, and the frame claim's post is
  read off its post.
-/
import proofs.«115010_j69922067579438_2_alg».proof.Proof.KernelIdealRun

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's eight pieces tile the output block, so they cover it. -/
theorem cover0_2 (c : Dev nD) (i : grid0.Coords) (arg1 : Memref sig .tc .vmem S2x1024x768 .f32) (harg1 : arg1.IsWhole) (arg2 : Memref sig .tc .vmem S384x768 .f32) (harg2 : arg2.IsWhole) (arg3 : Memref sig .tc .vmem S2x1024x64 .f32) (harg3 : arg3.IsWhole) (arg4 : Memref sig .tc .vmem S1024x384 .f32) (harg4 : arg4.IsWhole)
    (x0 : Vec F S2x1024x768 .f32) (x1 : Vec F S384x768 .f32) (y : S2x1024x64.Idx) :
    ∃ pc ∈ (kernelRun0 c i arg1 harg1 arg2 harg2 arg3 harg3 arg4 harg4 x0 x1).1, y ∈ pc.1.set :=
  View.cover_of_tiledL (kernelRun0 c i arg1 harg1 arg2 harg2 arg3 harg3 arg4 harg4 x0 x1).1 S1x256x64.size (by sl_kernel_rfl) y

/-- What the run leaves in the output block: its pieces read back over anything. -/
def out0_2 (c : Dev nD) (i : grid0.Coords) (arg1 : Memref sig .tc .vmem S2x1024x768 .f32) (harg1 : arg1.IsWhole) (arg2 : Memref sig .tc .vmem S384x768 .f32) (harg2 : arg2.IsWhole) (arg3 : Memref sig .tc .vmem S2x1024x64 .f32) (harg3 : arg3.IsWhole) (arg4 : Memref sig .tc .vmem S1024x384 .f32) (harg4 : arg4.IsWhole)
    (x0 : Vec F S2x1024x768 .f32) (x1 : Vec F S384x768 .f32) : Vec F S2x1024x64 .f32 :=
  VO0_2.read (Elt F) (VO0_2.writes (Elt F) VO0_2.junk (kernelRun0 c i arg1 harg1 arg2 harg2 arg3 harg3 arg4 harg4 x0 x1).1)

/-- What the output block holds after the body at point `t`. -/
def outsAt0 (c : Dev nD) (t : Fin cfg0.N) : Vec F S2x1024x64 .f32 :=
  out0_2 c (grid0.coords t) (ms0_0 t) (hs0_0 t) (ms0_1 t) (hs0_1 t) (ms0_2 t) (hs0_2 t) scM0_0 (Memref.isWhole_whole _) (iblk m c 0 t) (iblk m c 1 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at any point: the inputs' memrefs hold their blocks, so the run applies; the invariant lends the
    scratch and takes it back at some contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  unfold outsAt0
  unfold out0_2
  iintro ⟨⟨HS0, Hg⟩, Ho, ⟨%d0, H0⟩, ⟨%d1, H1⟩, ⟨%d2, H2⟩⟩
  iapply ((kernelRun0 c (grid0.coords t) _ _ _ _ _ _ _ _ (iblk m c 0 t) (iblk m c 1 t)).2 Set.univ _)
  isplitl [H0]; · iexact H0
  isplitl [H1]; · iexact H1
  isplitl [H2]; · iexists _; iexact H2
  isplitl [HS0]; · iexact HS0
  iintro ⟨H0, H1, ⟨%e2, H2⟩, HS0⟩
  isplitl [HS0 Hg]
  · isplitl [HS0]; · iexact HS0
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_2 c _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Frm

end
-- ==== Proof.LibStoreOverlay.lean ====
/-
  The newest store of a list of stores, made through a unit-stride rectangle, read at one element.

  What a list of stores (newest first) leaves in a buffer is, element by element, the payload of the newest store whose
  rectangle holds the element. For a newest store through the rectangle of offsets `off` and sizes `size`: an element whose
  coordinates are `off a + x a` on every axis reads the payload at `x` (`canon_cons_unit_of_mem`); an element that misses
  the rectangle on some axis — below the offset, or at or past offset plus size — reads what the older stores left
  (`canon_cons_unit_of_not_mem`). With them a list of overlapping stores (a fill, then tiles stored over it) is read by
  arithmetic on the coordinates alone.
-/
import Idealize.ShloMosaic.Lib.Pipeline.Value

namespace Idealize.ShloMosaic.StoreOverlay

variable {Val : EltTy → Type} [∀ e, Nonempty (Val e)] {S : Shape} {e : EltTy}

/-- Inside the newest store's rectangle, at local position `x`, the contents are its payload at `x`. -/
theorem canon_cons_unit_of_mem (off size : Fin S.rank → Nat) (inb)
    (w : (Rect.unit off size inb).shape.Idx → Val e) (L : List (View.Piece Val S e)) (y : S.Idx)
    (x : (Rect.unit off size inb).shape.Idx) (hx : ∀ a, (y a).val = off a + (x a).val) :
    View.canon (⟨Rect.unit off size inb, w⟩ :: L) y = w x := by
  have : y = (Rect.unit off size inb).emb x := funext fun a => Fin.ext (by rw [Rect.emb_apply, hx a]; simp)
  rw [this, View.canon_cons_emb]

/-- Off the newest store's rectangle — missing it on axis `a` — the contents are what the older stores left. -/
theorem canon_cons_unit_of_not_mem (off size : Fin S.rank → Nat) (inb)
    (w : (Rect.unit off size inb).shape.Idx → Val e) (L : List (View.Piece Val S e)) (y : S.Idx)
    (a : Fin S.rank) (ha : (y a).val < off a ∨ off a + size a ≤ (y a).val) :
    View.canon (⟨Rect.unit off size inb, w⟩ :: L) y = View.canon L y :=
  View.canon_cons_of_not_mem _ _ (fun h => by have := (Rect.mem_set_unit (inb := inb)).mp h a; omega)

end Idealize.ShloMosaic.StoreOverlay
-- ==== Proof.KPieces.lean ====
/-
  Which stored piece holds an element of the output block.

  Each loop trip k stores one [1,256,64] piece at rows 256k … 256k+255 of its sequence (the first loop into
  sequence 0 of the block, the second into sequence 1). The pieces of the trips before n are listed newest first,
  so the element at sequence b, row 256j + r, column d is found by passing over the pieces of later trips (their
  rows start above it) and of the other sequence, down to trip j's piece, where it sits at (0, r, d).
-/
import proofs.«115010_j69922067579438_2_alg».proof.Proof.KernelIdealFrame
import proofs.«115010_j69922067579438_2_alg».proof.Proof.LibStoreOverlay

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The first sequence's loop -/

/-- What trip `k` stores: the tile payload of the 256 query rows it loads from the scratch. -/
abbrev pay_t1 (𝒱 : Variants) (c : Dev nD) (bd : Option 𝒱.V) (i : grid0.Coords) (arg1 : Memref sig .tc .vmem S2x1024x768 .f32) (harg1 : arg1.IsWhole) (arg2 : Memref sig .tc .vmem S384x768 .f32) (harg2 : arg2.IsWhole) (arg3 : Memref sig .tc .vmem S2x1024x64 .f32) (harg3 : arg3.IsWhole) (arg4 : Memref sig .tc .vmem S1024x384 .f32) (harg4 : arg4.IsWhole) (v11 : Vec F S1024x128 .f32) (v13 : Vec F S1024x128 .f32) (X : BufTy.Contents (Elt F) arg4.view.ty) (k : Fin k0_t1_loop.trips) : Vec F S1x256x64 .f32 :=
  k0_pay4 v11 v13 k (View.readAt (Elt F) arg4.view (Rect.unit (s := S1024x384) (k0_off1 k) S256x128.size (k0_off1_inb k)).toLoadRect X)

/-- A trip stores one piece: its payload at rows 256k … 256k+255 of sequence 0. -/
theorem tripL1_eq (𝒱 : Variants) (c : Dev nD) (bd : Option 𝒱.V) (i : grid0.Coords) (arg1 : Memref sig .tc .vmem S2x1024x768 .f32) (harg1 : arg1.IsWhole) (arg2 : Memref sig .tc .vmem S384x768 .f32) (harg2 : arg2.IsWhole) (arg3 : Memref sig .tc .vmem S2x1024x64 .f32) (harg3 : arg3.IsWhole) (arg4 : Memref sig .tc .vmem S1024x384 .f32) (harg4 : arg4.IsWhole) (v11 : Vec F S1024x128 .f32) (v13 : Vec F S1024x128 .f32) (X : BufTy.Contents (Elt F) arg4.view.ty) (k : Fin k0_t1_loop.trips) :
    tripL_k0_t1 (F := F) 𝒱 c bd i arg1 harg1 arg2 harg2 arg3 harg3 arg4 harg4 v11 v13 X k
      = [(⟨Rect.unit (s := S2x1024x64) (k0_off2 k) S1x256x64.size (k0_off2_inb k), pay_t1 𝒱 c bd i arg1 harg1 arg2 harg2 arg3 harg3 arg4 harg4 v11 v13 X k⟩ : View.Piece (Elt F) S2x1024x64 .f32)] := by
  unfold tripL_k0_t1 trip_k0_t1; rfl

/-- An element of the other sequence is in none of this loop's pieces. -/
theorem canon_loop1_miss (𝒱 : Variants) (c : Dev nD) (bd : Option 𝒱.V) (i : grid0.Coords) (arg1 : Memref sig .tc .vmem S2x1024x768 .f32) (harg1 : arg1.IsWhole) (arg2 : Memref sig .tc .vmem S384x768 .f32) (harg2 : arg2.IsWhole) (arg3 : Memref sig .tc .vmem S2x1024x64 .f32) (harg3 : arg3.IsWhole) (arg4 : Memref sig .tc .vmem S1024x384 .f32) (harg4 : arg4.IsWhole) (v11 : Vec F S1024x128 .f32) (v13 : Vec F S1024x128 .f32) (X : BufTy.Contents (Elt F) arg4.view.ty)
    (n : ℕ) (hn : n ≤ k0_t1_loop.trips) (L' : List (View.Piece (Elt F) S2x1024x64 .f32)) (y : S2x1024x64.Idx) (hy : (y 0).val = 1) :
    View.canon (pb_k0_t1 (F := F) 𝒱 c bd i arg1 harg1 arg2 harg2 arg3 harg3 arg4 harg4 v11 v13 X n ++ L') y = View.canon L' y := by
  induction n with
  | zero => rfl
  | succ n ih =>
    have hk : n < k0_t1_loop.trips := hn
    rw [show n + 1 = (⟨n, hk⟩ : Fin k0_t1_loop.trips).val + 1 from rfl, pb_k0_t1_succ, tripL1_eq, List.append_assoc, List.singleton_append]
    have e0 : k0_off2 ⟨n, hk⟩ 0 = 0 := congrFun (k0_off2_eq ⟨n, hk⟩) 0
    rw [StoreOverlay.canon_cons_unit_of_not_mem _ _ _ _ _ y 0 (Or.inr (by rw [e0]; show 0 + 1 ≤ (y 0).val; omega))]
    exact ih (Nat.le_of_succ_le hn)

/-- An element of this sequence at row 256j + x₁ is in trip j's piece, at (0, x₁, x₂). -/
theorem canon_loop1_hit (𝒱 : Variants) (c : Dev nD) (bd : Option 𝒱.V) (i : grid0.Coords) (arg1 : Memref sig .tc .vmem S2x1024x768 .f32) (harg1 : arg1.IsWhole) (arg2 : Memref sig .tc .vmem S384x768 .f32) (harg2 : arg2.IsWhole) (arg3 : Memref sig .tc .vmem S2x1024x64 .f32) (harg3 : arg3.IsWhole) (arg4 : Memref sig .tc .vmem S1024x384 .f32) (harg4 : arg4.IsWhole) (v11 : Vec F S1024x128 .f32) (v13 : Vec F S1024x128 .f32) (X : BufTy.Contents (Elt F) arg4.view.ty)
    (n : ℕ) (hn : n ≤ k0_t1_loop.trips) (j : Fin k0_t1_loop.trips) (hj : j.val < n) (L' : List (View.Piece (Elt F) S2x1024x64 .f32))
    (y : S2x1024x64.Idx) (x : S1x256x64.Idx)
    (h0 : (y 0).val = 0 + (x 0).val) (h1 : (y 1).val = 256 * j.val + (x 1).val) (h2 : (y 2).val = 0 + (x 2).val) :
    View.canon (pb_k0_t1 (F := F) 𝒱 c bd i arg1 harg1 arg2 harg2 arg3 harg3 arg4 harg4 v11 v13 X n ++ L') y = pay_t1 𝒱 c bd i arg1 harg1 arg2 harg2 arg3 harg3 arg4 harg4 v11 v13 X j x := by
  have hx1 : (x 1).val < 256 := (x 1).isLt
  induction n with
  | zero => exact absurd hj (Nat.not_lt_zero _)
  | succ n ih =>
    have hk : n < k0_t1_loop.trips := hn
    rw [show n + 1 = (⟨n, hk⟩ : Fin k0_t1_loop.trips).val + 1 from rfl, pb_k0_t1_succ, tripL1_eq, List.append_assoc, List.singleton_append]
    by_cases hjn : j.val = n
    · have hj' : j = ⟨n, hk⟩ := Fin.ext hjn
      subst hj'
      have e0 : k0_off2 ⟨n, hk⟩ 0 = 0 := congrFun (k0_off2_eq ⟨n, hk⟩) 0
      have e1 : k0_off2 ⟨n, hk⟩ 1 = 256 * n := congrFun (k0_off2_eq ⟨n, hk⟩) 1
      have e2 : k0_off2 ⟨n, hk⟩ 2 = 0 := congrFun (k0_off2_eq ⟨n, hk⟩) 2
      exact StoreOverlay.canon_cons_unit_of_mem _ _ _ _ _ y x (fun a => by
        match a with
        | ⟨0, _⟩ => exact h0.trans (congrArg (fun t => t + (x 0).val) e0.symm)
        | ⟨1, _⟩ => exact h1.trans (congrArg (fun t => t + (x 1).val) e1.symm)
        | ⟨2, _⟩ => exact h2.trans (congrArg (fun t => t + (x 2).val) e2.symm))
    · have e1 : k0_off2 ⟨n, hk⟩ 1 = 256 * n := congrFun (k0_off2_eq ⟨n, hk⟩) 1
      rw [StoreOverlay.canon_cons_unit_of_not_mem _ _ _ _ _ y 1 (Or.inl (by rw [e1]; omega))]
      exact ih (Nat.le_of_succ_le hn) (by omega)

/-! ## The second sequence's loop -/

/-- What trip `k` stores: the tile payload of the 256 query rows it loads from the scratch. -/
abbrev pay_t2 (𝒱 : Variants) (c : Dev nD) (bd : Option 𝒱.V) (i : grid0.Coords) (arg1 : Memref sig .tc .vmem S2x1024x768 .f32) (harg1 : arg1.IsWhole) (arg2 : Memref sig .tc .vmem S384x768 .f32) (harg2 : arg2.IsWhole) (arg3 : Memref sig .tc .vmem S2x1024x64 .f32) (harg3 : arg3.IsWhole) (arg4 : Memref sig .tc .vmem S1024x384 .f32) (harg4 : arg4.IsWhole) (v3 : IVec S1x1024 32) (v24 : FVec F S1024x128 .bf16) (v26 : FVec F S1024x128 .bf16) (c0_i32_18 : BitVec 32) (X : BufTy.Contents (Elt F) arg4.view.ty) (k : Fin k0_t2_loop.trips) : Vec F S1x256x64 .f32 :=
  k0_pay1 v3 v24 v26 c0_i32_18 k (View.readAt (Elt F) arg4.view (Rect.unit (s := S1024x384) (k0_off3 k) S256x128.size (k0_off3_inb k)).toLoadRect X)

/-- A trip stores one piece: its payload at rows 256k … 256k+255 of sequence 1. -/
theorem tripL2_eq (𝒱 : Variants) (c : Dev nD) (bd : Option 𝒱.V) (i : grid0.Coords) (arg1 : Memref sig .tc .vmem S2x1024x768 .f32) (harg1 : arg1.IsWhole) (arg2 : Memref sig .tc .vmem S384x768 .f32) (harg2 : arg2.IsWhole) (arg3 : Memref sig .tc .vmem S2x1024x64 .f32) (harg3 : arg3.IsWhole) (arg4 : Memref sig .tc .vmem S1024x384 .f32) (harg4 : arg4.IsWhole) (v3 : IVec S1x1024 32) (v24 : FVec F S1024x128 .bf16) (v26 : FVec F S1024x128 .bf16) (c0_i32_18 : BitVec 32) (X : BufTy.Contents (Elt F) arg4.view.ty) (k : Fin k0_t2_loop.trips) :
    tripL_k0_t2 (F := F) 𝒱 c bd i arg1 harg1 arg2 harg2 arg3 harg3 arg4 harg4 v3 v24 v26 c0_i32_18 X k
      = [(⟨Rect.unit (s := S2x1024x64) (k0_off4 k) S1x256x64.size (k0_off4_inb k), pay_t2 𝒱 c bd i arg1 harg1 arg2 harg2 arg3 harg3 arg4 harg4 v3 v24 v26 c0_i32_18 X k⟩ : View.Piece (Elt F) S2x1024x64 .f32)] := by
  unfold tripL_k0_t2 trip_k0_t2; rfl

/-- An element of the other sequence is in none of this loop's pieces. -/
theorem canon_loop2_miss (𝒱 : Variants) (c : Dev nD) (bd : Option 𝒱.V) (i : grid0.Coords) (arg1 : Memref sig .tc .vmem S2x1024x768 .f32) (harg1 : arg1.IsWhole) (arg2 : Memref sig .tc .vmem S384x768 .f32) (harg2 : arg2.IsWhole) (arg3 : Memref sig .tc .vmem S2x1024x64 .f32) (harg3 : arg3.IsWhole) (arg4 : Memref sig .tc .vmem S1024x384 .f32) (harg4 : arg4.IsWhole) (v3 : IVec S1x1024 32) (v24 : FVec F S1024x128 .bf16) (v26 : FVec F S1024x128 .bf16) (c0_i32_18 : BitVec 32) (X : BufTy.Contents (Elt F) arg4.view.ty)
    (n : ℕ) (hn : n ≤ k0_t2_loop.trips) (L' : List (View.Piece (Elt F) S2x1024x64 .f32)) (y : S2x1024x64.Idx) (hy : (y 0).val = 0) :
    View.canon (pb_k0_t2 (F := F) 𝒱 c bd i arg1 harg1 arg2 harg2 arg3 harg3 arg4 harg4 v3 v24 v26 c0_i32_18 X n ++ L') y = View.canon L' y := by
  induction n with
  | zero => rfl
  | succ n ih =>
    have hk : n < k0_t2_loop.trips := hn
    rw [show n + 1 = (⟨n, hk⟩ : Fin k0_t2_loop.trips).val + 1 from rfl, pb_k0_t2_succ, tripL2_eq, List.append_assoc, List.singleton_append]
    have e0 : k0_off4 ⟨n, hk⟩ 0 = 1 := congrFun (k0_off4_eq ⟨n, hk⟩) 0
    rw [StoreOverlay.canon_cons_unit_of_not_mem _ _ _ _ _ y 0 (Or.inl (by rw [e0]; show (y 0).val < 1; omega))]
    exact ih (Nat.le_of_succ_le hn)

/-- An element of this sequence at row 256j + x₁ is in trip j's piece, at (0, x₁, x₂). -/
theorem canon_loop2_hit (𝒱 : Variants) (c : Dev nD) (bd : Option 𝒱.V) (i : grid0.Coords) (arg1 : Memref sig .tc .vmem S2x1024x768 .f32) (harg1 : arg1.IsWhole) (arg2 : Memref sig .tc .vmem S384x768 .f32) (harg2 : arg2.IsWhole) (arg3 : Memref sig .tc .vmem S2x1024x64 .f32) (harg3 : arg3.IsWhole) (arg4 : Memref sig .tc .vmem S1024x384 .f32) (harg4 : arg4.IsWhole) (v3 : IVec S1x1024 32) (v24 : FVec F S1024x128 .bf16) (v26 : FVec F S1024x128 .bf16) (c0_i32_18 : BitVec 32) (X : BufTy.Contents (Elt F) arg4.view.ty)
    (n : ℕ) (hn : n ≤ k0_t2_loop.trips) (j : Fin k0_t2_loop.trips) (hj : j.val < n) (L' : List (View.Piece (Elt F) S2x1024x64 .f32))
    (y : S2x1024x64.Idx) (x : S1x256x64.Idx)
    (h0 : (y 0).val = 1 + (x 0).val) (h1 : (y 1).val = 256 * j.val + (x 1).val) (h2 : (y 2).val = 0 + (x 2).val) :
    View.canon (pb_k0_t2 (F := F) 𝒱 c bd i arg1 harg1 arg2 harg2 arg3 harg3 arg4 harg4 v3 v24 v26 c0_i32_18 X n ++ L') y = pay_t2 𝒱 c bd i arg1 harg1 arg2 harg2 arg3 harg3 arg4 harg4 v3 v24 v26 c0_i32_18 X j x := by
  have hx1 : (x 1).val < 256 := (x 1).isLt
  induction n with
  | zero => exact absurd hj (Nat.not_lt_zero _)
  | succ n ih =>
    have hk : n < k0_t2_loop.trips := hn
    rw [show n + 1 = (⟨n, hk⟩ : Fin k0_t2_loop.trips).val + 1 from rfl, pb_k0_t2_succ, tripL2_eq, List.append_assoc, List.singleton_append]
    by_cases hjn : j.val = n
    · have hj' : j = ⟨n, hk⟩ := Fin.ext hjn
      subst hj'
      have e0 : k0_off4 ⟨n, hk⟩ 0 = 1 := congrFun (k0_off4_eq ⟨n, hk⟩) 0
      have e1 : k0_off4 ⟨n, hk⟩ 1 = 256 * n := congrFun (k0_off4_eq ⟨n, hk⟩) 1
      have e2 : k0_off4 ⟨n, hk⟩ 2 = 0 := congrFun (k0_off4_eq ⟨n, hk⟩) 2
      exact StoreOverlay.canon_cons_unit_of_mem _ _ _ _ _ y x (fun a => by
        match a with
        | ⟨0, _⟩ => exact h0.trans (congrArg (fun t => t + (x 0).val) e0.symm)
        | ⟨1, _⟩ => exact h1.trans (congrArg (fun t => t + (x 1).val) e1.symm)
        | ⟨2, _⟩ => exact h2.trans (congrArg (fun t => t + (x 2).val) e2.symm))
    · have e1 : k0_off4 ⟨n, hk⟩ 1 = 256 * n := congrFun (k0_off4_eq ⟨n, hk⟩) 1
      rw [StoreOverlay.canon_cons_unit_of_not_mem _ _ _ _ _ y 1 (Or.inl (by rw [e1]; omega))]
      exact ih (Nat.le_of_succ_le hn) (by omega)

theorem trips1 : k0_t1_loop.trips = 4 := by decide
theorem trips2 : k0_t2_loop.trips = 4 := by decide

end Cert.KernelIdeal.Frm

end
-- ==== Proof.Attention.lean ====
/-
  Single-head causal self-attention on the extended reals, as one function of the argument arrays.

  For a batch element b, a query position q, a key position k and a head coordinate d:
    proj x w b s d   = Σ_c x(b,s,c) · w(d,c)                         (a linear projection, c over 768 features)
    score b q k      = (Σ_d Q(b,q,d) · K(b,k,d)) · 2⁻³                (d over the 64 head coordinates)
    masked b q k     = score b q k  if k ≤ q,  −10⁹ otherwise         (the causal mask, a finite fill)
    rowMax b q       = max_k masked b q k                              (folded from −∞)
    weight b q k     = exp (masked b q k − rowMax b q)
    denom b q         = Σ_k weight b q k
    attn (b,q,d)     = Σ_k (weight b q k / denom b q) · V(b,k,d)
  The two constants are kept as the float words the programs spell (2⁻³ is 0x3E000000, −10⁹ is 0xCE6E6B28):
  both programs use the same words, so their values are never needed.
-/
import Idealize.ShloMosaic.PureOps.Ideal
import Idealize.ShloMosaic.Lib.ValueIdx

noncomputable section

namespace Cert.Attention

open Idealize.ShloMosaic Idealize.ShloMosaic.ValueIdx

/-- The activations' shape, the three weights' shape, the result's shape. -/
abbrev SX : Shape := ⟨3, ![32, 1024, 768]⟩
abbrev SW : Shape := ⟨2, ![64, 768]⟩
abbrev SO : Shape := ⟨3, ![32, 1024, 64]⟩

/-- The scale 64^(-1/2) = 1/8, as the float word both programs spell. -/
def scale : EReal := Ideal.ofBits .f32 0x3E000000#32
/-- The mask's fill −10⁹, as the float word both programs spell. -/
def fill : EReal := Ideal.ofBits .f32 0xCE6E6B28#32

/-- A linear projection of position `s` of batch element `b` onto row `d` of a weight. -/
def proj (x : SX.Idx → EReal) (w : SW.Idx → EReal) (b : Fin 32) (s : Fin 1024) (d : Fin 64) : EReal :=
  ∑ c : Fin 768, x (ix3 b s c) * w (ix2 d c)

/-- The scaled score of query `q` against key `k`. -/
def score (x : SX.Idx → EReal) (wq wk : SW.Idx → EReal) (b : Fin 32) (q k : Fin 1024) : EReal :=
  (∑ d : Fin 64, proj x wq b q d * proj x wk b k d) * scale

/-- The causal mask: a key after the query gets the fill. -/
def masked (x : SX.Idx → EReal) (wq wk : SW.Idx → EReal) (b : Fin 32) (q k : Fin 1024) : EReal :=
  if k.val ≤ q.val then score x wq wk b q k else fill

/-- The largest masked score of a query's row, folded from −∞. -/
def rowMax (x : SX.Idx → EReal) (wq wk : SW.Idx → EReal) (b : Fin 32) (q : Fin 1024) : EReal :=
  (Finset.univ : Finset (Fin 1024)).fold max ⊥ (fun k => masked x wq wk b q k)

/-- The unnormalised softmax weight of key `k` for query `q`. -/
def weight (x : SX.Idx → EReal) (wq wk : SW.Idx → EReal) (b : Fin 32) (q k : Fin 1024) : EReal :=
  Ideal.exp (masked x wq wk b q k - rowMax x wq wk b q)

/-- The softmax normaliser of query `q`'s row. -/
def denom (x : SX.Idx → EReal) (wq wk : SW.Idx → EReal) (b : Fin 32) (q : Fin 1024) : EReal :=
  ∑ k : Fin 1024, weight x wq wk b q k

/-- The attention output at coordinates. -/
def out (x : SX.Idx → EReal) (wq wk wv : SW.Idx → EReal) (b : Fin 32) (q : Fin 1024) (d : Fin 64) : EReal :=
  ∑ k : Fin 1024, Ideal.div (weight x wq wk b q k) (denom x wq wk b q) * proj x wv b k d

/-- The attention output as an array. -/
def attn (x : SX.Idx → EReal) (wq wk wv : SW.Idx → EReal) : SO.Idx → EReal :=
  fun i => out x wq wk wv (i 0) (i 1) (i 2)

theorem attn_ix3 (x : SX.Idx → EReal) (wq wk wv : SW.Idx → EReal) (b : Fin 32) (q : Fin 1024) (d : Fin 64) :
    attn x wq wk wv (ix3 b q d) = out x wq wk wv b q d := rfl

end Cert.Attention

end
-- ==== Proof.TileAttention.lean ====
/-
  Attention computed a tile of 256 query rows at a time, over heads padded from 64 to 128 coordinates.

  For a tile starting at row `row0`, with Q the tile's [256,128] queries and K, V the [1024,128] keys and values:
    tScore r k   = (Σ_j Q(r,j) · K(k,j)) · 2⁻³                 (j over all 128 padded coordinates)
    tMasked r k  = tScore r k  if k ≤ row0 + r,  the fill otherwise
    tOut r d     = Σ_k (exp(tMasked r k − max_k' tMasked r k') / Σ_k' exp(…)) · V(k,d)
  When the upper 64 coordinates of every query and key row are zero and the lower 64 are the projections of the
  specification, the padded sum Σ_j is the specification's sum over 64 coordinates (a zero times anything is zero
  and adds nothing), so the tile's output at a coordinate d < 64 is the specification's output at row row0 + r.
-/
import proofs.«115010_j69922067579438_2_alg».proof.Proof.Attention
import Mathlib.Algebra.BigOperators.Fin

noncomputable section

namespace Cert.Attention

open Idealize.ShloMosaic Idealize.ShloMosaic.ValueIdx

abbrev SQ : Shape := ⟨2, ![256, 128]⟩
abbrev SK : Shape := ⟨2, ![1024, 128]⟩

def tScore (Q : SQ.Idx → EReal) (K : SK.Idx → EReal) (r : Fin 256) (k : Fin 1024) : EReal :=
  (∑ j : Fin 128, Q (ix2 r j) * K (ix2 k j)) * scale

def tMasked (Q : SQ.Idx → EReal) (K : SK.Idx → EReal) (row0 : ℕ) (r : Fin 256) (k : Fin 1024) : EReal :=
  if k.val ≤ row0 + r.val then tScore Q K r k else fill

def tMax (Q : SQ.Idx → EReal) (K : SK.Idx → EReal) (row0 : ℕ) (r : Fin 256) : EReal :=
  (Finset.univ : Finset (Fin 1024)).fold max ⊥ (fun k => tMasked Q K row0 r k)

def tWeight (Q : SQ.Idx → EReal) (K : SK.Idx → EReal) (row0 : ℕ) (r : Fin 256) (k : Fin 1024) : EReal :=
  Ideal.exp (tMasked Q K row0 r k - tMax Q K row0 r)

def tDenom (Q : SQ.Idx → EReal) (K : SK.Idx → EReal) (row0 : ℕ) (r : Fin 256) : EReal :=
  ∑ k : Fin 1024, tWeight Q K row0 r k

def tOut (Q : SQ.Idx → EReal) (K V : SK.Idx → EReal) (row0 : ℕ) (r : Fin 256) (d : Fin 128) : EReal :=
  ∑ k : Fin 1024, Ideal.div (tWeight Q K row0 r k) (tDenom Q K row0 r) * V (ix2 k d)

/-- A sum over 128 coordinates whose upper 64 terms vanish is the sum of the lower 64. -/
theorem sum_lower_half (f : Fin 128 → EReal) (g : Fin 64 → EReal)
    (hlo : ∀ j : Fin 64, f ⟨j.val, by omega⟩ = g j) (hhi : ∀ j : Fin 128, 64 ≤ j.val → f j = 0) :
    ∑ j, f j = ∑ j, g j := by
  have h := Fin.sum_univ_add (M := EReal) (a := 64) (b := 64) (fun j : Fin (64 + 64) => f j)
  refine h.trans ?_
  have h1 : ∑ j : Fin 64, f (Fin.castAdd 64 j) = ∑ j, g j := Finset.sum_congr rfl fun j _ => hlo j
  have h2 : ∑ j : Fin 64, f (Fin.natAdd 64 j) = 0 := Finset.sum_eq_zero fun j _ => hhi _ (by simp [Fin.natAdd])
  rw [h1, h2, add_zero]

variable (x : SX.Idx → EReal) (wq wk wv : SW.Idx → EReal)

/-- The padded tile is the specification's row. -/
theorem tOut_eq_out (B : Fin 32) (row0 : ℕ) (r : Fin 256) (hrow : row0 + r.val < 1024) (d : Fin 64)
    (Q : SQ.Idx → EReal) (K V : SK.Idx → EReal)
    (hQlo : ∀ j : Fin 64, Q (ix2 r ⟨j.val, by omega⟩) = proj x wq B ⟨row0 + r.val, hrow⟩ j)
    (hQhi : ∀ j : Fin 128, 64 ≤ j.val → Q (ix2 r j) = 0)
    (hKlo : ∀ (k : Fin 1024) (j : Fin 64), K (ix2 k ⟨j.val, by omega⟩) = proj x wk B k j)
    (hV : ∀ k : Fin 1024, V (ix2 k ⟨d.val, by omega⟩) = proj x wv B k d) :
    tOut Q K V row0 r ⟨d.val, by omega⟩ = out x wq wk wv B ⟨row0 + r.val, hrow⟩ d := by
  have hs : ∀ k : Fin 1024, tScore Q K r k = score x wq wk B ⟨row0 + r.val, hrow⟩ k := fun k => by
    unfold tScore score
    congr 1
    refine sum_lower_half _ _ (fun j => by rw [hQlo, hKlo]) (fun j hj => by rw [hQhi j hj, zero_mul])
  have hm : ∀ k : Fin 1024, tMasked Q K row0 r k = masked x wq wk B ⟨row0 + r.val, hrow⟩ k := fun k => by
    unfold tMasked masked; rw [hs]
  have hx : tMax Q K row0 r = rowMax x wq wk B ⟨row0 + r.val, hrow⟩ := by
    unfold tMax rowMax
    exact congrArg (fun f : Fin 1024 → EReal => (Finset.univ : Finset (Fin 1024)).fold max ⊥ f) (funext hm)
  have hw : ∀ k : Fin 1024, tWeight Q K row0 r k = weight x wq wk B ⟨row0 + r.val, hrow⟩ k := fun k => by
    unfold tWeight weight; rw [hm, hx]
  have hd : tDenom Q K row0 r = denom x wq wk B ⟨row0 + r.val, hrow⟩ := by
    unfold tDenom denom; exact Finset.sum_congr rfl fun k _ => hw k
  unfold tOut out
  exact Finset.sum_congr rfl fun k _ => by rw [hw, hd, hV]

end Cert.Attention

end
-- ==== Proof.LibMatmulRowsByRowsOf.lean ====
/-
  A matrix product whose right operand is contracted on its LAST axis, into the zero accumulator, read at an entry.

  On the extended reals a `tpu.matmul` of an `[M, K]` left operand and an `[N, K]` right operand (`x · wᵀ`: the
  contraction on both operands' second axis, no batch axis), accumulated into the zero splat, is at entry `(p, q)`
  the inner product of row `p` of the left operand with row `q` of the right one, `∑ₖ l(p, k) · r(q, k)`: no rounding,
  no order of accumulation. The dimension record is kept abstract; what is asked of it is that it contracts one axis of
  extent `K` and reads its operands at `(p, k)` and `(q, k)` — four facts a concrete record gives by unfolding.
  Imports only the library.
-/
import Idealize.ShloMosaic.PureOps.Ideal.Laws
import Idealize.ShloMosaic.Lib.ValueIdx

namespace Idealize.ShloMosaic.MatmulRowsByRowsOf

open Idealize.ShloMosaic Idealize.ShloMosaic.ValueIdx

/-- `matmul D prec l r 0` at `(p, q)` is `∑ k, l (p, k) * r (q, k)`. -/
theorem matmul_zero_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (j 1).val)
    (hr1 : ∀ (j : (⟨2, ![M, N]⟩ : Shape).Idx) (q : D.contr.Idx), (D.rhsIdx j q 1).val = (q ⟨0, by omega⟩).val)
    (prec : Option ContractPrecision) (l : FVec Ideal ⟨2, ![M, K]⟩ φ₁) (r : FVec Ideal ⟨2, ![N, K]⟩ φ₂)
    (p : Fin M) (q : Fin N) :
    matmul D prec l r (constant (F := Ideal) ⟨2, ![M, N]⟩ .f32 0x00000000#32) (ix2 p q)
      = ∑ k : Fin K, l (ix2 p k) * r (ix2 q k) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Idealize.ShloMosaic.MatmulRowsByRowsOf
-- ==== Proof.LibMatmulRowsByCols.lean ====
/-
  A matrix product into the zero accumulator, read at an entry.

  On the extended reals a `tpu.matmul` of an `[M, K]` left operand and a `[K, N]` right operand (the contraction on the
  left's second axis and the right's first, no batch axis), accumulated into the zero splat, is at entry `(p, q)` the
  plain sum `∑ₖ l(p, k) · r(k, q)`: no rounding, no order of accumulation. The dimension record is kept abstract; what
  is asked of it is that it contracts one axis of extent `K` and reads its operands at `(p, k)` and `(k, q)`, four
  facts a concrete record gives by unfolding. Imports only the library.
-/
import Idealize.ShloMosaic.PureOps.Ideal.Laws
import Idealize.ShloMosaic.Lib.ValueIdx

namespace Idealize.ShloMosaic.MatmulRowsByCols

open Idealize.ShloMosaic Idealize.ShloMosaic.ValueIdx

/-- `matmul D prec l r 0` at `(p, q)` is `∑ k, l (p, k) * r (k, q)`. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    matmul D prec l r (constant (F := Ideal) ⟨2, ![M, N]⟩ .f32 0x00000000#32) (ix2 p q)
      = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulRowsByCols
-- ==== Proof.LibRowReduce.lean ====
/-
  A reduction of a matrix along its second axis, read at a row.

  On the extended reals a `vector.multi_reduction` of an `[a, b]` array over axis 1 into `[a]` is, at row `p`,
  the sum (for `add`), the maximum folded from the accumulator's value (for `maximumf`) or the minimum folded from
  the accumulator's value (for `minimumf`) of the row's entries `(p, k)`, `k : Fin b`. The library reads such a
  reduction over the coordinates of the dropped axis with the reduced index re-inserted; here the re-inserted index is
  written by its coordinates. Also: the f32 words of minus infinity and of 8192.
-/
import Idealize.ShloMosaic.PureOps.Ideal.Laws
import Idealize.ShloMosaic.Lib.ValueIdx

namespace Idealize.ShloMosaic.RowReduce

open Idealize.ShloMosaic Idealize.ShloMosaic.ValueIdx

/-- Row `p` with column `k` inserted on the dropped axis is the index `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- A sum along the rows: at row `p`, the sum over `k` of the entries `(p, k)`. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- A maximum along the rows: at row `p`, the maximum folded from the accumulator's value over the entries `(p, k)`. -/
theorem multiReduction_maximumf_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  rw [Ideal.multiReduction_maximumf_single]
  exact congrArg (fun f : Fin b → EReal => (Finset.univ : Finset (Fin b)).fold max (Ideal.ofBits φ acc) f)
    (funext fun k => congrArg src (lift_row h p k))

/-- A minimum along the rows: at row `p`, the minimum folded from the accumulator's value over the entries `(p, k)`. -/
theorem multiReduction_minimumf_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (p : Fin a) :
    multiReduction .minimumf [1] ⟨1, ![a]⟩ src acc h hφ hacc (ix1 p)
      = (Finset.univ : Finset (Fin b)).fold min (Ideal.ofBits φ acc) (fun k => src (ix2 p k)) := by
  classical
  rw [multiReduction_minimumf_eq_fold]
  refine (h.fold_filter_drop_single _ _ src (ix1 p)).trans ?_
  exact congrArg (fun f : Fin b → EReal => (Finset.univ : Finset (Fin b)).fold min (Ideal.ofBits φ acc) f)
    (funext fun k => congrArg src (lift_row h p k))

/-- The f32 word of minus infinity is the bottom element. -/
theorem ofBits_neg_inf : Ideal.ofBits .f32 0xFF800000#32 = ⊥ := by
  simp [Ideal.ofBits, Ideal.ieee]

/-- The f32 word `0x46000000` is the real number 8192. -/
theorem ofBits_8192 : Ideal.ofBits .f32 0x46000000#32 = ((8192 : ℝ) : EReal) := by
  simp [Ideal.ofBits, Ideal.ieee, -EReal.coe_mul]; norm_num

end Idealize.ShloMosaic.RowReduce
-- ==== Proof.LibIndicator.lean ====
/-
  One-bit conditions and their 0/1 indicators on the extended reals.

  A comparison yields a one-bit word that is 1 exactly when the relation holds; exclusive-or with 1 negates it and
  bitwise-and conjoins two of them. Widened to 32 bits and converted as a signed integer, such a word is the extended
  real 1 or 0. A finite sum of such indicators is the number of indices at which the condition holds, and their
  maximum folded from the bottom element is positive exactly when the condition holds somewhere.
-/
import Idealize.ShloMosaic.PureOps.Ideal
import Idealize.ShloMosaic.Lib.ValueIdx
import Mathlib.Algebra.BigOperators.Ring.Finset

namespace Idealize.ShloMosaic.Indicator

open Idealize.ShloMosaic

/-- The word of a Boolean is 1 exactly when the Boolean is true. -/
theorem ofBool_eq_one_iff (b : Bool) : BitVec.ofBool b = 1#1 ↔ b = true := by cases b <;> decide

/-- `x > y` as a one-bit word is 1 exactly when `y < x`. -/
theorem cmp_ogt_eq_one_iff (x y : EReal) : Ideal.cmp .ogt x y = 1#1 ↔ y < x := by
  unfold Ideal.cmp; rw [ofBool_eq_one_iff]; exact decide_eq_true_iff

/-- `x < y` as a one-bit word is 1 exactly when `x < y`. -/
theorem cmp_olt_eq_one_iff (x y : EReal) : Ideal.cmp .olt x y = 1#1 ↔ x < y := by
  unfold Ideal.cmp; rw [ofBool_eq_one_iff]; exact decide_eq_true_iff

/-- Equality of two words as a one-bit word is 1 exactly when they are equal. -/
theorem cmpi_eq_eq_one_iff {w : ℕ} (x y : BitVec w) : IntOp.cmpi .eq x y = 1#1 ↔ x = y := by
  unfold IntOp.cmpi; rw [ofBool_eq_one_iff]; exact beq_iff_eq

/-- Exclusive-or with 1 negates a one-bit condition. -/
theorem xori_one_eq_one_iff (c : BitVec 1) : IntOp.xori c 1#1 = 1#1 ↔ ¬ c = 1#1 := by
  rcases BitVec.eq_zero_or_eq_one c with h | h <;> subst h <;> decide

/-- Bitwise-and conjoins two one-bit conditions. -/
theorem andi_eq_one_iff (c d : BitVec 1) : IntOp.andi c d = 1#1 ↔ c = 1#1 ∧ d = 1#1 := by
  rcases BitVec.eq_zero_or_eq_one c with h | h <;> rcases BitVec.eq_zero_or_eq_one d with h' | h' <;>
    subst h <;> subst h' <;> decide

/-- A select on a one-bit word is the conditional on the word being 1. -/
theorem select_eq_ite {α : Type} (c : BitVec 1) (a b : α) : Scalar.select c a b = if c = 1#1 then a else b := rfl

/-- A one-bit word widened to 32 bits and converted as a signed integer is 1 where the bit is set, 0 elsewhere. -/
theorem sitofp_setWidth_bit (c : BitVec 1) :
    FloatOps.sitofp (F := Ideal) .f32 (c.setWidth 32) = if c = 1#1 then 1 else 0 := by
  show ((((c.setWidth 32).toInt : ℤ) : ℝ) : EReal) = _
  rcases BitVec.eq_zero_or_eq_one c with h | h
  · subst h
    have e : ((0#1 : BitVec 1).setWidth 32).toInt = 0 := by decide
    rw [e, if_neg (by decide)]; simp
  · subst h
    have e : ((1#1 : BitVec 1).setWidth 32).toInt = 1 := by decide
    rw [e, if_pos rfl]; simp

/-- A finite sum of 0/1 indicators on the extended reals is the number of indices where the condition holds. -/
theorem sum_indicator_eq_card {ι : Type*} [Fintype ι] (P : ι → Prop) [DecidablePred P] :
    (∑ i, (if P i then (1 : EReal) else 0)) = ((Finset.univ.filter P).card : EReal) :=
  Finset.sum_boole P Finset.univ

/-- The maximum of 0/1 indicators folded from the bottom element is positive exactly when the condition holds at some
    index. -/
theorem zero_lt_fold_max_indicator {ι : Type*} [Fintype ι] (P : ι → Prop) [DecidablePred P] :
    0 < (Finset.univ : Finset ι).fold max (⊥ : EReal) (fun i => if P i then (1 : EReal) else 0) ↔ ∃ i, P i := by
  rw [Finset.lt_fold_max]
  constructor
  · rintro (h | ⟨i, _, hi⟩)
    · exact absurd h (not_lt.mpr bot_le)
    · by_cases hp : P i
      · exact ⟨i, hp⟩
      · rw [if_neg hp] at hi; exact absurd hi (lt_irrefl _)
  · rintro ⟨i, hp⟩
    exact Or.inr ⟨i, Finset.mem_univ i, by rw [if_pos hp]; exact zero_lt_one⟩

/-- Comparisons of a natural number's cast with 1 and with another cast, on the extended reals. -/
theorem one_lt_natCast_iff (n : ℕ) : (1 : EReal) < (n : EReal) ↔ 1 < n := by
  rw [← Nat.cast_one (R := EReal)]; exact EReal.natCast_lt_iff

theorem zero_lt_natCast_iff (n : ℕ) : (0 : EReal) < (n : EReal) ↔ 0 < n := by
  rw [← Nat.cast_zero (R := EReal)]; exact EReal.natCast_lt_iff

end Idealize.ShloMosaic.Indicator
-- ==== Proof.LibColumnLayout.lean ====
/-
  Layout operations read at an index given by coordinates, for the shapes a kernel meets when it works on a square
  tile one column at a time and stores the tile into a stack of tiles:

  * a column `[a, 1]` broadcast over `[a, b]` reads, at `(p, c)`, the column's entry `p`;
  * an `[a, b]` array cast to `[1, 1, a, b]` reads, at `(u, v, i, j)`, the operand at `(i, j)`;
  * a rank-4 array whose axes are permuted by `[0, 2, 3, 1]` (a channel axis moved from second to last) reads, at
    `(m, i, j, c)`, the operand at `(m, c, i, j)`.

  Each is the general lemma of the layout library with the coordinate arithmetic discharged.
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A rank-4 array with its second axis moved last (permutation `[0, 2, 3, 1]`) reads, at `(m, i, j, c)`, the
    operand at `(m, c, i, j)`. -/
theorem transpose_ix4_0231_apply {n c a b : ℕ} (x : (⟨4, ![n, c, a, b]⟩ : Shape).Idx → α)
    (h : (⟨4, ![n, c, a, b]⟩ : Shape).Transposes [0, 2, 3, 1] ⟨4, ![n, a, b, c]⟩)
    (m : Fin n) (i : Fin a) (j : Fin b) (k : Fin c) :
    transpose ⟨4, ![n, a, b, c]⟩ [0, 2, 3, 1] x h (ix4 m i j k) = x (ix4 m k i j) :=
  transpose_apply _ x h _ _ fun d => match d with
    | ⟨0, _⟩ => rfl | ⟨1, _⟩ => rfl | ⟨2, _⟩ => rfl | ⟨3, _⟩ => rfl

end Idealize.ShloMosaic.ValueIdx
-- ==== Proof.LibVectorAsColumn.lean ====
/-
  A vector viewed as a one-column matrix, read at an index given by coordinates: an `[a]` array cast to `[a, 1]` (what
  `v.reshape(a, 1)` or `v[:, None]` is, as a shape cast) reads, at `(i, u)`, the vector's entry `i`. The layout library
  has the row form `[a] → [1, a]`; this is the column form, with the row-major arithmetic discharged the same way.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.LibSmallWords.lean ====
/-
  32-bit words of small natural numbers, as a causal mask compares them.

  A natural number below 2³¹ and its 32-bit word have the same signed reading, so the signed comparison
  `≥` of two such words is the comparison of the numbers; the word of a sum is the sum of the words; and
  the induction variable of a counted loop from 0 by 1, times a literal, is the word of the product.
-/
import Idealize.ShloMosaic.Lib.Affine
import Idealize.ShloMosaic.Lib.Scf

namespace Idealize.ShloMosaic.SmallWords

open Idealize.ShloMosaic

/-- The signed reading of the word of a natural number below 2³¹ is the number. -/
theorem toInt_ofNat32 (n : ℕ) (h : n < 2 ^ 31) : (BitVec.ofNat 32 n).toInt = (n : ℤ) := by
  have hn : (BitVec.ofNat 32 n).toNat = n := by
    rw [BitVec.toNat_ofNat]; exact Nat.mod_eq_of_lt (by omega)
  rw [BitVec.toInt_eq_toNat_of_lt (by rw [hn]; omega), hn]

/-- Signed `a ≥ b` on the words of two naturals below 2³¹ is `b ≤ a`. -/
theorem cmpi_sge_ofNat (a b : ℕ) (ha : a < 2 ^ 31) (hb : b < 2 ^ 31) :
    IntOp.cmpi .sge (BitVec.ofNat 32 a) (BitVec.ofNat 32 b) = 1#1 ↔ b ≤ a := by
  rw [IntOp.cmpi_sge, toInt_ofNat32 a ha, toInt_ofNat32 b hb]; exact Int.ofNat_le

/-- Adding the zero word changes nothing. -/
theorem addi_zero (x : BitVec 32) : IntOp.addi x 0#32 = x := by
  unfold IntOp.addi; exact BitVec.add_zero x

/-- The word of a sum is the sum of the words. -/
theorem addi_ofNat (a b : ℕ) : IntOp.addi (BitVec.ofNat 32 a) (BitVec.ofNat 32 b) = BitVec.ofNat 32 (a + b) := by
  unfold IntOp.addi; exact (BitVec.ofNat_add a b).symm

/-- Trip `k` of a loop from 0 by 1, times the literal `c`, is the word of `c * k`. -/
theorem muli_iv (k c : ℕ) : Scalar.muli (Scf.iv 0#32 1#32 k) (BitVec.ofNat 32 c) = BitVec.ofNat 32 (c * k) := by
  unfold Scalar.muli IntOp.muli Scf.iv
  rw [BitVec.zero_add, BitVec.mul_one, ← BitVec.ofNat_mul, Nat.mul_comm]

end Idealize.ShloMosaic.SmallWords
-- ==== Proof.KTile.lean ====
/-
  One tile of the kernel's body, read at an index on the extended reals.

  The pure part of a loop trip takes the tile's 256 query rows and all 1024 key and value rows (each 128 wide)
  and computes: the products of queries with keys summed over the 128 coordinates and scaled; the causal
  selection, whose condition compares, as signed 32-bit words, the row number (the tile's first row plus the row
  within the tile) with the key's number; the row maximum folded from −∞, the exponentials of the differences,
  their row sum and the quotients; and the quotients times the values summed over keys, of which the first 64
  columns are kept. Changes of float format are the identity. Read at row r and column d < 64 this is the tile
  function `tOut` of the attention specification, for the first sequence's loop and for the second's.
-/
import proofs.«115010_j69922067579438_2_alg».proof.Proof.Gen.KernelIdeal.Skeleton
import proofs.«115010_j69922067579438_2_alg».proof.Proof.TileAttention
import proofs.«115010_j69922067579438_2_alg».proof.Proof.LibMatmulRowsByRowsOf
import proofs.«115010_j69922067579438_2_alg».proof.Proof.LibMatmulRowsByCols
import proofs.«115010_j69922067579438_2_alg».proof.Proof.LibRowReduce
import proofs.«115010_j69922067579438_2_alg».proof.Proof.LibIndicator
import proofs.«115010_j69922067579438_2_alg».proof.Proof.LibColumnLayout
import proofs.«115010_j69922067579438_2_alg».proof.Proof.LibVectorAsColumn
import proofs.«115010_j69922067579438_2_alg».proof.Proof.LibSmallWords
import Idealize.ShloMosaic.Lib.ValueLayout
import Idealize.ShloMosaic.Lib.Pipeline.Value

set_option maxRecDepth 16384

noncomputable section

namespace Cert.KernelIdeal.Tile

open Cert.KernelIdeal Cert.KernelIdeal.Gen Cert.Attention
open Idealize.ShloMosaic Idealize.ShloMosaic.ValueIdx

/-! ## The three matrix products' index facts -/

theorem proj_l0 (j : S1024x384.Idx) (q : dot_S1024x768_S384x768_S1024x384_1_1_0_0_n_n.contr.Idx) : (dot_S1024x768_S384x768_S1024x384_1_1_0_0_n_n.lhsIdx j q 0).val = (j 0).val := by
  unfold DotDims.lhsIdx
  rw [dif_neg (show ¬(0 : Fin S1024x768.rank) ∈ dot_S1024x768_S384x768_S1024x384_1_1_0_0_n_n.lhsBatch by decide), dif_pos (show (0 : Fin S1024x768.rank) ∈ dot_S1024x768_S384x768_S1024x384_1_1_0_0_n_n.lhsNonContracting by decide)]
  rfl
theorem proj_l1 (j : S1024x384.Idx) (q : dot_S1024x768_S384x768_S1024x384_1_1_0_0_n_n.contr.Idx) : (dot_S1024x768_S384x768_S1024x384_1_1_0_0_n_n.lhsIdx j q 1).val = (q ⟨0, by decide⟩).val :=
  dot_S1024x768_S384x768_S1024x384_1_1_0_0_n_n.lhsIdx_val_of_single rfl j q
theorem proj_r0 (j : S1024x384.Idx) (q : dot_S1024x768_S384x768_S1024x384_1_1_0_0_n_n.contr.Idx) : (dot_S1024x768_S384x768_S1024x384_1_1_0_0_n_n.rhsIdx j q 0).val = (j 1).val := by
  unfold DotDims.rhsIdx
  rw [dif_neg (show ¬(0 : Fin S384x768.rank) ∈ dot_S1024x768_S384x768_S1024x384_1_1_0_0_n_n.rhsBatch by decide), dif_pos (show (0 : Fin S384x768.rank) ∈ dot_S1024x768_S384x768_S1024x384_1_1_0_0_n_n.rhsNonContracting by decide)]
  rfl
theorem proj_r1 (j : S1024x384.Idx) (q : dot_S1024x768_S384x768_S1024x384_1_1_0_0_n_n.contr.Idx) : (dot_S1024x768_S384x768_S1024x384_1_1_0_0_n_n.rhsIdx j q 1).val = (q ⟨0, by decide⟩).val :=
  dot_S1024x768_S384x768_S1024x384_1_1_0_0_n_n.rhsIdx_val_of_single rfl j q

theorem qk_l0 (j : S256x1024.Idx) (q : dot_S256x128_S1024x128_S256x1024_1_1_0_0_n_n.contr.Idx) : (dot_S256x128_S1024x128_S256x1024_1_1_0_0_n_n.lhsIdx j q 0).val = (j 0).val := by
  unfold DotDims.lhsIdx
  rw [dif_neg (show ¬(0 : Fin S256x128.rank) ∈ dot_S256x128_S1024x128_S256x1024_1_1_0_0_n_n.lhsBatch by decide), dif_pos (show (0 : Fin S256x128.rank) ∈ dot_S256x128_S1024x128_S256x1024_1_1_0_0_n_n.lhsNonContracting by decide)]
  rfl
theorem qk_l1 (j : S256x1024.Idx) (q : dot_S256x128_S1024x128_S256x1024_1_1_0_0_n_n.contr.Idx) : (dot_S256x128_S1024x128_S256x1024_1_1_0_0_n_n.lhsIdx j q 1).val = (q ⟨0, by decide⟩).val :=
  dot_S256x128_S1024x128_S256x1024_1_1_0_0_n_n.lhsIdx_val_of_single rfl j q
theorem qk_r0 (j : S256x1024.Idx) (q : dot_S256x128_S1024x128_S256x1024_1_1_0_0_n_n.contr.Idx) : (dot_S256x128_S1024x128_S256x1024_1_1_0_0_n_n.rhsIdx j q 0).val = (j 1).val := by
  unfold DotDims.rhsIdx
  rw [dif_neg (show ¬(0 : Fin S1024x128.rank) ∈ dot_S256x128_S1024x128_S256x1024_1_1_0_0_n_n.rhsBatch by decide), dif_pos (show (0 : Fin S1024x128.rank) ∈ dot_S256x128_S1024x128_S256x1024_1_1_0_0_n_n.rhsNonContracting by decide)]
  rfl
theorem qk_r1 (j : S256x1024.Idx) (q : dot_S256x128_S1024x128_S256x1024_1_1_0_0_n_n.contr.Idx) : (dot_S256x128_S1024x128_S256x1024_1_1_0_0_n_n.rhsIdx j q 1).val = (q ⟨0, by decide⟩).val :=
  dot_S256x128_S1024x128_S256x1024_1_1_0_0_n_n.rhsIdx_val_of_single rfl j q

theorem av_l0 (j : S256x128.Idx) (q : dot_S256x1024_S1024x128_S256x128_1_0_0_1_n_n.contr.Idx) : (dot_S256x1024_S1024x128_S256x128_1_0_0_1_n_n.lhsIdx j q 0).val = (j 0).val := by
  unfold DotDims.lhsIdx
  rw [dif_neg (show ¬(0 : Fin S256x1024.rank) ∈ dot_S256x1024_S1024x128_S256x128_1_0_0_1_n_n.lhsBatch by decide), dif_pos (show (0 : Fin S256x1024.rank) ∈ dot_S256x1024_S1024x128_S256x128_1_0_0_1_n_n.lhsNonContracting by decide)]
  rfl
theorem av_l1 (j : S256x128.Idx) (q : dot_S256x1024_S1024x128_S256x128_1_0_0_1_n_n.contr.Idx) : (dot_S256x1024_S1024x128_S256x128_1_0_0_1_n_n.lhsIdx j q 1).val = (q ⟨0, by decide⟩).val :=
  dot_S256x1024_S1024x128_S256x128_1_0_0_1_n_n.lhsIdx_val_of_single rfl j q
theorem av_r0 (j : S256x128.Idx) (q : dot_S256x1024_S1024x128_S256x128_1_0_0_1_n_n.contr.Idx) : (dot_S256x1024_S1024x128_S256x128_1_0_0_1_n_n.rhsIdx j q 0).val = (q ⟨0, by decide⟩).val :=
  dot_S256x1024_S1024x128_S256x128_1_0_0_1_n_n.rhsIdx_val_of_single rfl j q
theorem av_r1 (j : S256x128.Idx) (q : dot_S256x1024_S1024x128_S256x128_1_0_0_1_n_n.contr.Idx) : (dot_S256x1024_S1024x128_S256x128_1_0_0_1_n_n.rhsIdx j q 1).val = (j 1).val := by
  unfold DotDims.rhsIdx
  rw [dif_neg (show ¬(1 : Fin S1024x128.rank) ∈ dot_S256x1024_S1024x128_S256x128_1_0_0_1_n_n.rhsBatch by decide), dif_pos (show (1 : Fin S1024x128.rank) ∈ dot_S256x1024_S1024x128_S256x128_1_0_0_1_n_n.rhsNonContracting by decide)]
  rfl

/-- The fused projection of one sequence at (s, j): the sum over the 768 features. -/
theorem proj_apply (xs : FVec Ideal S1024x768 .bf16) (ws : FVec Ideal S384x768 .bf16) (s : Fin 1024) (j : Fin 384) :
    matmul dot_S1024x768_S384x768_S1024x384_1_1_0_0_n_n none xs ws (constant (F := Ideal) S1024x384 .f32 0x00000000#32) (ix2 s j)
      = ∑ c : Fin 768, xs (ix2 s c) * ws (ix2 j c) :=
  MatmulRowsByRowsOf.matmul_zero_apply dot_S1024x768_S384x768_S1024x384_1_1_0_0_n_n rfl rfl proj_l0 proj_l1 proj_r0 proj_r1 none xs ws s j

/-- The scaled scores of a tile at (r, k). -/
theorem scores_apply (q : FVec Ideal S256x128 .bf16) (kk : FVec Ideal S1024x128 .bf16) (r : Fin 256) (k : Fin 1024) :
    mulf (matmul dot_S256x128_S1024x128_S256x1024_1_1_0_0_n_n none q kk (constant (F := Ideal) S256x1024 .f32 0x00000000#32))
        (broadcast S256x1024 (Scalar.ofBits (F := Ideal) .f32 0x3E000000#32)) (ix2 r k)
      = (∑ j : Fin 128, q (ix2 r j) * kk (ix2 k j)) * scale := by
  rw [mulf_apply, MatmulRowsByRowsOf.matmul_zero_apply dot_S256x128_S1024x128_S256x1024_1_1_0_0_n_n rfl rfl qk_l0 qk_l1 qk_r0 qk_r1 none q kk r k]
  rfl

/-- The causal condition's bit at (r, k): the row's number, the word `w` added to the row within the tile, against the key's. -/
theorem mask_apply (w : BitVec 32) (r : Fin 256) (k : Fin 1024) :
    cmpi .sge (broadcastTo S256x1024 (addi (iota .tc S256x1 32 [0] iota_S256x1_d0_w32) (broadcast S256x1 w)) broadcasts_S256x1_S256x1024)
        (broadcastTo S256x1024 (iota .tc S1x1024 32 [1] iota_S1x1024_d1_w32) broadcasts_S1x1024_S256x1024) (ix2 r k)
      = IntOp.cmpi .sge (IntOp.addi (BitVec.ofNat 32 r.val) w) (BitVec.ofNat 32 k.val) := by
  show IntOp.cmpi .sge (broadcastTo S256x1024 (addi (iota .tc S256x1 32 [0] iota_S256x1_d0_w32) (broadcast S256x1 w)) broadcasts_S256x1_S256x1024 (ix2 r k))
      (broadcastTo S256x1024 (iota .tc S1x1024 32 [1] iota_S1x1024_d1_w32) broadcasts_S1x1024_S256x1024 (ix2 r k)) = _
  rw [broadcastTo_a1_ab_apply, broadcastTo_1b_ab_apply, iota_single_apply]
  show IntOp.cmpi .sge (IntOp.addi (iota .tc S256x1 32 [0] iota_S256x1_d0_w32 (ix2 r (0 : Fin 1))) w) _ = _
  rw [iota_single_apply]

/-- The bit is set exactly when the key is not after the row. -/
theorem mask_bit (k0 : ℕ) (hk0 : k0 < 4) (r : Fin 256) (k : Fin 1024) :
    IntOp.cmpi .sge (IntOp.addi (BitVec.ofNat 32 r.val) (Scalar.muli (Scf.iv 0#32 1#32 k0) 256#32)) (BitVec.ofNat 32 k.val) = 1#1
      ↔ k.val ≤ 256 * k0 + r.val := by
  rw [show (256#32 : BitVec 32) = BitVec.ofNat 32 256 from rfl, SmallWords.muli_iv, SmallWords.addi_ofNat,
    SmallWords.cmpi_sge_ofNat _ _ (by have := r.isLt; omega) (by have := k.isLt; omega)]
  omega

/-- A row softmax at (r, k): the exponential of the entry less the row's maximum, over the row's sum of those. -/
theorem softmax_apply (s : FVec Ideal S256x1024 .f32) (r : Fin 256) (k : Fin 1024) :
    (divf (exp (subf s (broadcastTo S256x1024 (shapeCast S256x1 (multiReduction .maximumf [1] S256 s 0xFF800000#32 reduces_S256x1024_S256 (.inl rfl) rfl) shapeCasts_S256_S256x1) broadcasts_S256x1_S256x1024))) (broadcastTo S256x1024 (shapeCast S256x1 (multiReduction .add [1] S256 (exp (subf s (broadcastTo S256x1024 (shapeCast S256x1 (multiReduction .maximumf [1] S256 s 0xFF800000#32 reduces_S256x1024_S256 (.inl rfl) rfl) shapeCasts_S256_S256x1) broadcasts_S256x1_S256x1024))) 0x00000000#32 reduces_S256x1024_S256 (.inl rfl) rfl) shapeCasts_S256_S256x1) broadcasts_S256x1_S256x1024)) (ix2 r k)
      = Ideal.div (Ideal.exp (s (ix2 r k) - (Finset.univ : Finset (Fin 1024)).fold max ⊥ (fun k' => s (ix2 r k'))))
          (∑ k'' : Fin 1024, Ideal.exp (s (ix2 r k'') - (Finset.univ : Finset (Fin 1024)).fold max ⊥ (fun k' => s (ix2 r k')))) := by
  have hmax : ∀ k' : Fin 1024, (broadcastTo S256x1024 (shapeCast S256x1 (multiReduction .maximumf [1] S256 s 0xFF800000#32 reduces_S256x1024_S256 (.inl rfl) rfl) shapeCasts_S256_S256x1) broadcasts_S256x1_S256x1024) (ix2 r k') = (Finset.univ : Finset (Fin 1024)).fold max ⊥ (fun k' => s (ix2 r k')) := fun k' => by
    rw [broadcastTo_a1_ab_apply, shapeCast_a_a1_apply]
    exact (RowReduce.multiReduction_maximumf_row s _ _ _ _ r).trans (by rw [RowReduce.ofBits_neg_inf])
  have hexp : ∀ k' : Fin 1024, (exp (subf s (broadcastTo S256x1024 (shapeCast S256x1 (multiReduction .maximumf [1] S256 s 0xFF800000#32 reduces_S256x1024_S256 (.inl rfl) rfl) shapeCasts_S256_S256x1) broadcasts_S256x1_S256x1024))) (ix2 r k') = Ideal.exp (s (ix2 r k') - (Finset.univ : Finset (Fin 1024)).fold max ⊥ (fun k' => s (ix2 r k'))) := fun k' => by
    show Ideal.exp (s (ix2 r k') - (broadcastTo S256x1024 (shapeCast S256x1 (multiReduction .maximumf [1] S256 s 0xFF800000#32 reduces_S256x1024_S256 (.inl rfl) rfl) shapeCasts_S256_S256x1) broadcasts_S256x1_S256x1024) (ix2 r k')) = _
    rw [hmax]
  rw [divf_apply, hexp, broadcastTo_a1_ab_apply, shapeCast_a_a1_apply]
  refine congrArg (Ideal.div _) ((RowReduce.multiReduction_add_row _ _ _ _ _ r).trans ?_)
  exact Finset.sum_congr rfl fun k' _ => hexp k'

/-- The weighted sum of the values, cut to its first 64 columns, at (r, d). -/
theorem values_apply (p : FVec Ideal S256x1024 .bf16) (vv : FVec Ideal S1024x128 .bf16) (r : Fin 256) (d : Fin 64) :
    shapeCast S1x256x64 (extractStridedSlice S256x64 ![0, 0] (matmul dot_S256x1024_S1024x128_S256x128_1_0_0_1_n_n none p vv (constant (F := Ideal) S256x128 .f32 0x00000000#32)) slices_S256x128_o0_0_S256x64)
        shapeCasts_S256x64_S1x256x64 (ix3 (0 : Fin 1) r d)
      = ∑ k : Fin 1024, p (ix2 r k) * vv (ix2 k (⟨d.val, by omega⟩ : Fin 128)) := by
  rw [shapeCast_ab_1ab_apply, extractStridedSlice_apply ![0, 0] _ slices_S256x128_o0_0_S256x64 (ix2 r d) (ix2 r (⟨d.val, by omega⟩ : Fin 128))
    (fun a => by match a with | ⟨0, _⟩ => exact (Nat.zero_add _).symm | ⟨1, _⟩ => exact (Nat.zero_add _).symm)]
  exact MatmulRowsByCols.matmul_zero_apply dot_S256x1024_S1024x128_S256x128_1_0_0_1_n_n rfl rfl av_l0 av_l1 av_r0 av_r1 none p vv r _

/-- The masked scores of a tile at (r, k). -/
theorem masked_apply (q : FVec Ideal S256x128 .bf16) (kk : FVec Ideal S1024x128 .bf16) (k0 : ℕ) (hk0 : k0 < 4) (r : Fin 256) (k : Fin 1024) :
    (select (cmpi .sge (broadcastTo S256x1024 (addi (iota .tc S256x1 32 [0] iota_S256x1_d0_w32) (broadcast S256x1 (Scalar.muli (Scf.iv 0#32 1#32 k0) 256#32))) broadcasts_S256x1_S256x1024) (broadcastTo S256x1024 (iota .tc S1x1024 32 [1] iota_S1x1024_d1_w32) broadcasts_S1x1024_S256x1024)) (mulf (matmul dot_S256x128_S1024x128_S256x1024_1_1_0_0_n_n none q kk (constant (F := Ideal) S256x1024 .f32 0x00000000#32)) (broadcast S256x1024 (Scalar.ofBits (F := Ideal) .f32 0x3E000000#32))) (broadcast S256x1024 (Scalar.ofBits (F := Ideal) .f32 0xCE6E6B28#32))) (ix2 r k) = tMasked q kk (256 * k0) r k := by
  rw [select_apply, Indicator.select_eq_ite, mask_apply, scores_apply]
  unfold tMasked tScore fill
  exact if_congr (mask_bit k0 hk0 r k) rfl rfl

/-- One whole tile at (0, r, d): the tile function of the specification. -/
theorem tile_apply (q : FVec Ideal S256x128 .bf16) (kk vv : FVec Ideal S1024x128 .bf16) (k0 : ℕ) (hk0 : k0 < 4) (r : Fin 256) (d : Fin 64) :
    shapeCast S1x256x64 (extractStridedSlice S256x64 ![0, 0] (matmul dot_S256x1024_S1024x128_S256x128_1_0_0_1_n_n none (truncf .bf16 (divf (exp (subf (select (cmpi .sge (broadcastTo S256x1024 (addi (iota .tc S256x1 32 [0] iota_S256x1_d0_w32) (broadcast S256x1 (Scalar.muli (Scf.iv 0#32 1#32 k0) 256#32))) broadcasts_S256x1_S256x1024) (broadcastTo S256x1024 (iota .tc S1x1024 32 [1] iota_S1x1024_d1_w32) broadcasts_S1x1024_S256x1024)) (mulf (matmul dot_S256x128_S1024x128_S256x1024_1_1_0_0_n_n none q kk (constant (F := Ideal) S256x1024 .f32 0x00000000#32)) (broadcast S256x1024 (Scalar.ofBits (F := Ideal) .f32 0x3E000000#32))) (broadcast S256x1024 (Scalar.ofBits (F := Ideal) .f32 0xCE6E6B28#32))) (broadcastTo S256x1024 (shapeCast S256x1 (multiReduction .maximumf [1] S256 (select (cmpi .sge (broadcastTo S256x1024 (addi (iota .tc S256x1 32 [0] iota_S256x1_d0_w32) (broadcast S256x1 (Scalar.muli (Scf.iv 0#32 1#32 k0) 256#32))) broadcasts_S256x1_S256x1024) (broadcastTo S256x1024 (iota .tc S1x1024 32 [1] iota_S1x1024_d1_w32) broadcasts_S1x1024_S256x1024)) (mulf (matmul dot_S256x128_S1024x128_S256x1024_1_1_0_0_n_n none q kk (constant (F := Ideal) S256x1024 .f32 0x00000000#32)) (broadcast S256x1024 (Scalar.ofBits (F := Ideal) .f32 0x3E000000#32))) (broadcast S256x1024 (Scalar.ofBits (F := Ideal) .f32 0xCE6E6B28#32))) 0xFF800000#32 reduces_S256x1024_S256 (.inl rfl) rfl) shapeCasts_S256_S256x1) broadcasts_S256x1_S256x1024))) (broadcastTo S256x1024 (shapeCast S256x1 (multiReduction .add [1] S256 (exp (subf (select (cmpi .sge (broadcastTo S256x1024 (addi (iota .tc S256x1 32 [0] iota_S256x1_d0_w32) (broadcast S256x1 (Scalar.muli (Scf.iv 0#32 1#32 k0) 256#32))) broadcasts_S256x1_S256x1024) (broadcastTo S256x1024 (iota .tc S1x1024 32 [1] iota_S1x1024_d1_w32) broadcasts_S1x1024_S256x1024)) (mulf (matmul dot_S256x128_S1024x128_S256x1024_1_1_0_0_n_n none q kk (constant (F := Ideal) S256x1024 .f32 0x00000000#32)) (broadcast S256x1024 (Scalar.ofBits (F := Ideal) .f32 0x3E000000#32))) (broadcast S256x1024 (Scalar.ofBits (F := Ideal) .f32 0xCE6E6B28#32))) (broadcastTo S256x1024 (shapeCast S256x1 (multiReduction .maximumf [1] S256 (select (cmpi .sge (broadcastTo S256x1024 (addi (iota .tc S256x1 32 [0] iota_S256x1_d0_w32) (broadcast S256x1 (Scalar.muli (Scf.iv 0#32 1#32 k0) 256#32))) broadcasts_S256x1_S256x1024) (broadcastTo S256x1024 (iota .tc S1x1024 32 [1] iota_S1x1024_d1_w32) broadcasts_S1x1024_S256x1024)) (mulf (matmul dot_S256x128_S1024x128_S256x1024_1_1_0_0_n_n none q kk (constant (F := Ideal) S256x1024 .f32 0x00000000#32)) (broadcast S256x1024 (Scalar.ofBits (F := Ideal) .f32 0x3E000000#32))) (broadcast S256x1024 (Scalar.ofBits (F := Ideal) .f32 0xCE6E6B28#32))) 0xFF800000#32 reduces_S256x1024_S256 (.inl rfl) rfl) shapeCasts_S256_S256x1) broadcasts_S256x1_S256x1024))) 0x00000000#32 reduces_S256x1024_S256 (.inl rfl) rfl) shapeCasts_S256_S256x1) broadcasts_S256x1_S256x1024)) bitsLt_bf16_f32) vv (constant (F := Ideal) S256x128 .f32 0x00000000#32)) slices_S256x128_o0_0_S256x64)
        shapeCasts_S256x64_S1x256x64 (ix3 (0 : Fin 1) r d)
      = tOut q kk vv (256 * k0) r ⟨d.val, by omega⟩ := by
  refine (values_apply _ _ r d).trans ?_
  unfold tOut
  refine Finset.sum_congr rfl fun k _ => ?_
  refine congrArg (fun t : EReal => t * vv (ix2 k (⟨d.val, by omega⟩ : Fin 128))) ?_
  refine (softmax_apply _ r k).trans ?_
  unfold tWeight tDenom tWeight tMax
  simp only [masked_apply q kk k0 hk0 r]

/-- The first sequence's loop payload at (0, r, d). -/
theorem pay4_apply (v11 v13 : Vec Ideal S1024x128 .f32) (k : Fin k0_t1_loop.trips) (v31 : Vec Ideal S256x128 .f32) (r : Fin 256) (d : Fin 64) :
    k0_pay4 (F := Ideal) v11 v13 k v31 (ix3 (0 : Fin 1) r d) = tOut v31 v11 v13 (256 * k.val) r ⟨d.val, by omega⟩ :=
  tile_apply (truncf .bf16 v31 bitsLt_bf16_f32) (truncf .bf16 v11 bitsLt_bf16_f32) (truncf .bf16 v13 bitsLt_bf16_f32) k.val
    (Nat.lt_of_lt_of_le k.isLt k0_t1_abs.2.1) r d

/-- The second sequence's loop payload at (0, r, d), the loop counting from the zero word. -/
theorem pay1_apply (v24 v26 : FVec Ideal S1024x128 .bf16) (k : Fin k0_t2_loop.trips) (v31 : Vec Ideal S256x128 .f32) (r : Fin 256) (d : Fin 64) :
    k0_pay1 (F := Ideal) (iota .tc S1x1024 32 [1] iota_S1x1024_d1_w32) v24 v26 0#32 k v31 (ix3 (0 : Fin 1) r d)
      = tOut v31 v24 v26 (256 * k.val) r ⟨d.val, by omega⟩ :=
  tile_apply (truncf .bf16 v31 bitsLt_bf16_f32) v24 v26 k.val (Nat.lt_of_lt_of_le k.isLt k0_t2_abs.2.1) r d

/-- The first sequence's fused projection at (s, j): the sequence's row s against row j of the fused weights. -/
theorem pay3_apply (v0 : Vec Ideal S384x768 .f32) (v4 : Vec Ideal S1x1024x768 .f32) (s : Fin 1024) (j : Fin 384) :
    k0_pay3 (F := Ideal) v0 v4 (ix2 s j) = ∑ cc : Fin 768, v4 (ix3 (0 : Fin 1) s cc) * v0 (ix2 j cc) := by
  show shapeCast S1024x384 (matmul dot_S1024x768_S384x768_S1024x384_1_1_0_0_n_n none (truncf .bf16 (shapeCast S1024x768 v4 shapeCasts_S1x1024x768_S1024x768) bitsLt_bf16_f32)
    (truncf .bf16 (shapeCast S384x768 v0 shapeCasts_S384x768_S384x768) bitsLt_bf16_f32) (constant (F := Ideal) S1024x384 .f32 0x00000000#32)) shapeCasts_S1024x384_S1024x384 (ix2 s j) = _
  rw [shapeCast_self]
  refine (proj_apply _ _ s j).trans (Finset.sum_congr rfl fun cc _ => ?_)
  show shapeCast S1024x768 v4 shapeCasts_S1x1024x768_S1024x768 (ix2 s cc) * shapeCast S384x768 v0 shapeCasts_S384x768_S384x768 (ix2 j cc) = _
  rw [shapeCast_1ab_ab_apply, shapeCast_self]

/-- The second sequence's fused projection at (s, j). -/
theorem pay5_apply (v0 : Vec Ideal S384x768 .f32) (v16 : Vec Ideal S1x1024x768 .f32) (s : Fin 1024) (j : Fin 384) :
    k0_pay5 (F := Ideal) v0 v16 (ix2 s j) = ∑ cc : Fin 768, v16 (ix3 (0 : Fin 1) s cc) * v0 (ix2 j cc) :=
  pay3_apply v0 v16 s j

end Cert.KernelIdeal.Tile

end
-- ==== Proof.LibSlabOfStack.lean ====
/-
  One slab of a stack of arrays, read at an index given by coordinates.

  Stacked parameters `[n, a, b]` (or `[n, a]`) are used one slab at a time: slab `s` is the `[1, a, b]` (or `[1, a]`)
  piece that starts at `(s, 0, 0)`. Whether the slab is loaded through a unit-stride rectangle or cut out by a slice, its
  entry `(0, k, q)` is the stack's entry `(s, k, q)`. Any extents and any element type; imports only the library.
-/
import Idealize.ShloMosaic.Lib.Pipeline.FrameBody
import Idealize.ShloMosaic.Lib.Pipeline.Value
import Idealize.ShloMosaic.Lib.ValueIdx

namespace Idealize.ShloMosaic.SlabOfStack

open Idealize.ShloMosaic Idealize.ShloMosaic.ValueIdx

variable {α : Type}

/-- The unit-stride rectangle of slab `s` of an `[n, a, b]` stack places its index `(0, k, q)` at `(s, k, q)`. -/
theorem idx_slab3 {n a b : ℕ} (s : ℕ) (hs : s < n)
    (inb : ∀ d, (![s, 0, 0] : Fin 3 → ℕ) d + (![1, a, b] : Fin 3 → ℕ) d ≤ (⟨3, ![n, a, b]⟩ : Shape).size d)
    (k : Fin a) (q : Fin b) :
    (Rect.unit (s := ⟨3, ![n, a, b]⟩) ![s, 0, 0] ![1, a, b] inb).toLoadRect.idx (ix3 (0 : Fin 1) k q)
      = ix3 (⟨s, hs⟩ : Fin n) k q := by
  funext d
  apply Fin.ext
  match d with
  | ⟨0, _⟩ => show s + 1 * 0 = s; omega
  | ⟨1, _⟩ => show 0 + 1 * k.val = k.val; omega
  | ⟨2, _⟩ => show 0 + 1 * q.val = q.val; omega

/-- The unit-stride rectangle of row `s` of an `[n, a]` stack places its index `(0, q)` at `(s, q)`. -/
theorem idx_slab2 {n a : ℕ} (s : ℕ) (hs : s < n)
    (inb : ∀ d, (![s, 0] : Fin 2 → ℕ) d + (![1, a] : Fin 2 → ℕ) d ≤ (⟨2, ![n, a]⟩ : Shape).size d) (q : Fin a) :
    (Rect.unit (s := ⟨2, ![n, a]⟩) ![s, 0] ![1, a] inb).toLoadRect.idx (ix2 (0 : Fin 1) q) = ix2 (⟨s, hs⟩ : Fin n) q := by
  funext d
  apply Fin.ext
  match d with
  | ⟨0, _⟩ => show s + 1 * 0 = s; omega
  | ⟨1, _⟩ => show 0 + 1 * q.val = q.val; omega

/-- Slab `s` of an `[n, a, b]` stack, loaded through its rectangle, reads at `(0, k, q)` the stack at `(s, k, q)`. -/
theorem ld_slab3 {Val : EltTy → Type} {e : EltTy} {n a b : ℕ} (s : ℕ) (hs : s < n) (x : (⟨3, ![n, a, b]⟩ : Shape).Idx → Val e)
    (inb : ∀ d, (![s, 0, 0] : Fin 3 → ℕ) d + (![1, a, b] : Fin 3 → ℕ) d ≤ (⟨3, ![n, a, b]⟩ : Shape).size d)
    (k : Fin a) (q : Fin b) :
    View.ld (Val := Val) x (Rect.unit (s := ⟨3, ![n, a, b]⟩) ![s, 0, 0] ![1, a, b] inb) (ix3 (0 : Fin 1) k q)
      = x (ix3 (⟨s, hs⟩ : Fin n) k q) :=
  congrArg x (idx_slab3 s hs inb k q)

/-- Row `s` of an `[n, a]` stack, loaded through its rectangle, reads at `(0, q)` the stack at `(s, q)`. -/
theorem ld_slab2 {Val : EltTy → Type} {e : EltTy} {n a : ℕ} (s : ℕ) (hs : s < n) (x : (⟨2, ![n, a]⟩ : Shape).Idx → Val e)
    (inb : ∀ d, (![s, 0] : Fin 2 → ℕ) d + (![1, a] : Fin 2 → ℕ) d ≤ (⟨2, ![n, a]⟩ : Shape).size d) (q : Fin a) :
    View.ld (Val := Val) x (Rect.unit (s := ⟨2, ![n, a]⟩) ![s, 0] ![1, a] inb) (ix2 (0 : Fin 1) q) = x (ix2 (⟨s, hs⟩ : Fin n) q) :=
  congrArg x (idx_slab2 s hs inb q)

/-- Slab `s` of an `[n, a, b]` stack, cut out by a slice, reads at `(0, k, q)` the stack at `(s, k, q)`. -/
theorem slice_slab3 {n a b : ℕ} (s : ℕ) (hs : s < n) (x : (⟨3, ![n, a, b]⟩ : Shape).Idx → α)
    (h : (⟨3, ![n, a, b]⟩ : Shape).Slices ![s, 0, 0] ⟨3, ![1, a, b]⟩) (k : Fin a) (q : Fin b) :
    extractStridedSlice ⟨3, ![1, a, b]⟩ ![s, 0, 0] x h (ix3 (0 : Fin 1) k q) = x (ix3 (⟨s, hs⟩ : Fin n) k q) :=
  extractStridedSlice_apply ![s, 0, 0] x h _ _ (fun d => match d with
    | ⟨0, _⟩ => by show s = s + 0; omega
    | ⟨1, _⟩ => by show k.val = 0 + k.val; omega
    | ⟨2, _⟩ => by show q.val = 0 + q.val; omega)

/-- Row `s` of an `[n, a]` stack, cut out by a slice, reads at `(0, q)` the stack at `(s, q)`. -/
theorem slice_slab2 {n a : ℕ} (s : ℕ) (hs : s < n) (x : (⟨2, ![n, a]⟩ : Shape).Idx → α)
    (h : (⟨2, ![n, a]⟩ : Shape).Slices ![s, 0] ⟨2, ![1, a]⟩) (q : Fin a) :
    extractStridedSlice ⟨2, ![1, a]⟩ ![s, 0] x h (ix2 (0 : Fin 1) q) = x (ix2 (⟨s, hs⟩ : Fin n) q) :=
  extractStridedSlice_apply ![s, 0] x h _ _ (fun d => match d with
    | ⟨0, _⟩ => by show s = s + 0; omega
    | ⟨1, _⟩ => by show q.val = 0 + q.val; omega)

end Idealize.ShloMosaic.SlabOfStack
-- ==== Proof.LibUnitRect.lean ====
/-
  Where a unit-stride rectangle of a matrix places an index: the rectangle at offsets (o₀, o₁) of sizes [m₀, m₁] inside
  an [n₀, n₁] matrix sends its own index (a, b) to (o₀ + a, o₁ + b), as a load through it reads. Any extents.
-/
import Idealize.ShloMosaic.Lib.Pipeline.FrameBody
import Idealize.ShloMosaic.Lib.Pipeline.Value
import Idealize.ShloMosaic.Lib.ValueIdx

namespace Idealize.ShloMosaic.UnitRect

open Idealize.ShloMosaic Idealize.ShloMosaic.ValueIdx

/-- The load index of (a, b) through the rectangle is (o₀ + a, o₁ + b). -/
theorem idx_unit2 {n0 n1 m0 m1 : ℕ} (off : Fin 2 → ℕ)
    (inb : ∀ d, off d + (![m0, m1] : Fin 2 → ℕ) d ≤ (⟨2, ![n0, n1]⟩ : Shape).size d)
    (a : Fin m0) (b : Fin m1) (a' : Fin n0) (b' : Fin n1) (ha : a'.val = off 0 + a.val) (hb : b'.val = off 1 + b.val) :
    (Rect.unit (s := ⟨2, ![n0, n1]⟩) off ![m0, m1] inb).toLoadRect.idx (ix2 a b) = ix2 a' b' := by
  funext d
  apply Fin.ext
  match d with
  | ⟨0, _⟩ => show off 0 + 1 * a.val = a'.val; omega
  | ⟨1, _⟩ => show off 1 + 1 * b.val = b'.val; omega

end Idealize.ShloMosaic.UnitRect
-- ==== Proof.KBlock.lean ====
/-
  What the kernel leaves in its output block, element by element.

  At a grid point the body is handed a pair of sequences x0 : [2,1024,768] and the fused weights x1 : [384,768],
  whose rows 0–63 are the query weights, 64–127 zeros, 128–191 the key weights, 256–319 the value weights
  (`Fused`). For each sequence it fills the scratch with the fused projection — entry (s, j) is the sequence's row s
  against weight row j — and each loop trip loads its 256 query rows (columns 0–127) while the keys and values are
  the column bands 128–255 and 256–383 of the whole scratch. So the loaded queries and keys carry the
  specification's projections in their lower 64 coordinates and zeros above, and the element of the block at
  (sequence, row 256·trip + r, column d) is the specification's output for that sequence, row and column.
-/
import proofs.«115010_j69922067579438_2_alg».proof.Proof.KPieces
import proofs.«115010_j69922067579438_2_alg».proof.Proof.KTile
import proofs.«115010_j69922067579438_2_alg».proof.Proof.LibSlabOfStack
import proofs.«115010_j69922067579438_2_alg».proof.Proof.LibUnitRect

set_option maxRecDepth 16384

noncomputable section

namespace Cert.KernelIdeal.Frm

open Cert.KernelIdeal Cert.KernelIdeal.Gen Cert.KernelIdeal.Tile Cert.Attention Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

/-- The fused weights: the three heads' weights at rows 0, 128 and 256, zeros in rows 64–127. -/
structure Fused (x1 : Vec Ideal S384x768 .f32) (wq wk wv : SW.Idx → EReal) : Prop where
  q : ∀ (jj : Fin 64) (cc : Fin 768), x1 (ix2 (⟨jj.val, by omega⟩ : Fin 384) cc) = wq (ix2 jj cc)
  z : ∀ (jj : Fin 128) (cc : Fin 768), 64 ≤ jj.val → (hj : jj.val < 128) → x1 (ix2 (⟨jj.val, by omega⟩ : Fin 384) cc) = 0
  k : ∀ (jj : Fin 64) (cc : Fin 768), x1 (ix2 (⟨128 + jj.val, by omega⟩ : Fin 384) cc) = wk (ix2 jj cc)
  v : ∀ (jj : Fin 64) (cc : Fin 768), x1 (ix2 (⟨256 + jj.val, by omega⟩ : Fin 384) cc) = wv (ix2 jj cc)

/-- The scratch after the projection of sequence b: entry (s, j) is row s of the sequence against weight row j. -/
theorem scratch_apply (arg1 : Memref sig .tc .vmem S2x1024x768 .f32) (harg1 : arg1.IsWhole) (arg2 : Memref sig .tc .vmem S384x768 .f32) (harg2 : arg2.IsWhole)
    (x0 : Vec Ideal S2x1024x768 .f32) (x1 : Vec Ideal S384x768 .f32) (b : Fin 2)
    (inb : ∀ a, (![b.val, 0, 0] : Fin 3 → Nat) a + S1x1024x768.size a ≤ S2x1024x768.size a) (s : Fin 1024) (jj : Fin 384) :
    k0_pay3 (F := Ideal) (View.readAt (Elt Ideal) arg2.view (Rect.unit (s := S384x768) ![0, 0] S384x768.size inb_S384x768_S384x768_0_0).toLoadRect (harg2.unread x1))
        (View.readAt (Elt Ideal) arg1.view (Rect.unit (s := S2x1024x768) ![b.val, 0, 0] S1x1024x768.size inb).toLoadRect (harg1.unread x0)) (ix2 s jj)
      = ∑ cc : Fin 768, x0 (ix3 b s cc) * x1 (ix2 jj cc) := by
  rw [pay3_apply]
  refine Finset.sum_congr rfl fun cc _ => ?_
  simp only [View.readAt_eq_ld, harg1.read_unread, harg2.read_unread, View.ld_unit_zero (S := S384x768) hz2]
  rw [SlabOfStack.ld_slab3 b.val b.isLt x0 inb s cc]
  exact congrArg₂ (· * ·) rfl (congrFun (View.ld_unit_zero (S := S384x768) hz2 inb_S384x768_S384x768_0_0 x1) (ix2 jj cc))

/-- A first-loop trip's load of its 256 query rows, after a whole-scratch store: the stored rows 256k … 256k+255, columns 0–127. -/
theorem load_tile1 (arg4 : Memref sig .tc .vmem S1024x384 .f32) (w : S1024x384.Idx → EReal) (L : List (View.Piece (Elt Ideal) S1024x384 .f32))
    (k : Fin k0_t1_loop.trips) (r : Fin 256) (jj : Fin 128) :
    View.readAt (Elt Ideal) arg4.view (Rect.unit (s := S1024x384) (k0_off1 k) S256x128.size (k0_off1_inb k)).toLoadRect
        (arg4.view.writes (Elt Ideal) arg4.view.junk ((⟨Rect.unit (s := S1024x384) ![0, 0] S1024x384.size inb_S1024x384_S1024x384_0_0, w⟩ : View.Piece (Elt Ideal) S1024x384 .f32) :: L)) (ix2 r jj)
      = w (ix2 (⟨256 * k.val + r.val, by have := Nat.lt_of_lt_of_le k.isLt k0_t1_abs.2.1; omega⟩ : Fin 1024) (⟨jj.val, by omega⟩ : Fin 384)) := by
  rw [View.readAt_writes_junk_eq_canon, View.canon_cons_unit_zero hz2]
  exact congrArg w (UnitRect.idx_unit2 _ _ r jj _ _ (by rw [show k0_off1 k 0 = 256 * k.val from congrFun (k0_off1_eq k) 0])
    (by rw [show k0_off1 k 1 = 0 from congrFun (k0_off1_eq k) 1]; exact (Nat.zero_add _).symm))

/-- The same for a second-loop trip. -/
theorem load_tile2 (arg4 : Memref sig .tc .vmem S1024x384 .f32) (w : S1024x384.Idx → EReal) (L : List (View.Piece (Elt Ideal) S1024x384 .f32))
    (k : Fin k0_t2_loop.trips) (r : Fin 256) (jj : Fin 128) :
    View.readAt (Elt Ideal) arg4.view (Rect.unit (s := S1024x384) (k0_off3 k) S256x128.size (k0_off3_inb k)).toLoadRect
        (arg4.view.writes (Elt Ideal) arg4.view.junk ((⟨Rect.unit (s := S1024x384) ![0, 0] S1024x384.size inb_S1024x384_S1024x384_0_0, w⟩ : View.Piece (Elt Ideal) S1024x384 .f32) :: L)) (ix2 r jj)
      = w (ix2 (⟨256 * k.val + r.val, by have := Nat.lt_of_lt_of_le k.isLt k0_t2_abs.2.1; omega⟩ : Fin 1024) (⟨jj.val, by omega⟩ : Fin 384)) := by
  rw [View.readAt_writes_junk_eq_canon, View.canon_cons_unit_zero hz2]
  exact congrArg w (UnitRect.idx_unit2 _ _ r jj _ _ (by rw [show k0_off3 k 0 = 256 * k.val from congrFun (k0_off3_eq k) 0])
    (by rw [show k0_off3 k 1 = 0 from congrFun (k0_off3_eq k) 1]; exact (Nat.zero_add _).symm))

/-- A load of the column band o … o+127 of the whole scratch after a whole-scratch store. -/
theorem load_cols (arg4 : Memref sig .tc .vmem S1024x384 .f32) (w : S1024x384.Idx → EReal) (L : List (View.Piece (Elt Ideal) S1024x384 .f32))
    (o : ℕ) (inb : ∀ a, (![0, o] : Fin 2 → Nat) a + S1024x128.size a ≤ S1024x384.size a) (k : Fin 1024) (jj : Fin 128) (ho : o + 128 ≤ 384) :
    arg4.view.readCov ((⟨Rect.unit (s := S1024x384) ![0, 0] S1024x384.size inb_S1024x384_S1024x384_0_0, w⟩ : View.Piece (Elt Ideal) S1024x384 .f32) :: L)
        (Rect.unit (s := S1024x384) ![0, o] S1024x128.size inb).toLoadRect (ix2 k jj)
      = w (ix2 k (⟨o + jj.val, by omega⟩ : Fin 384)) := by
  rw [View.readCov_eq_canon', View.canon_cons_unit_zero hz2]
  exact congrArg w (UnitRect.idx_unit2 _ _ k jj _ _ (Nat.zero_add _).symm rfl)

/-- An element of sequence 0 of the output block is the specification's output for that sequence. -/
theorem out0_2_seq0 (c : Dev nD) (i : grid0.Coords) (arg1 : Memref sig .tc .vmem S2x1024x768 .f32) (harg1 : arg1.IsWhole) (arg2 : Memref sig .tc .vmem S384x768 .f32) (harg2 : arg2.IsWhole) (arg3 : Memref sig .tc .vmem S2x1024x64 .f32) (harg3 : arg3.IsWhole) (arg4 : Memref sig .tc .vmem S1024x384 .f32) (harg4 : arg4.IsWhole)
    (x0 : Vec Ideal S2x1024x768 .f32) (x1 : Vec Ideal S384x768 .f32)
    (x : SX.Idx → EReal) (wq wk wv : SW.Idx → EReal) (B : Fin 32)
    (hx : ∀ (s : Fin 1024) (cc : Fin 768), x0 (ix3 (0 : Fin 2) s cc) = x (ix3 B s cc)) (hF : Fused x1 wq wk wv)
    (j : Fin k0_t1_loop.trips) (r : Fin 256) (d : Fin 64) (q : Fin 1024) (hq : q.val = 256 * j.val + r.val) :
    out0_2 (F := Ideal) c i arg1 harg1 arg2 harg2 arg3 harg3 arg4 harg4 x0 x1 (ix3 (0 : Fin 2) q d) = out x wq wk wv B q d := by
  have hrow : 256 * j.val + r.val < 1024 := by have := q.isLt; omega
  have hqe : q = ⟨256 * j.val + r.val, hrow⟩ := Fin.ext hq
  unfold out0_2
  rw [View.read_writes_eq_canon _ _ _ (cover0_2 c i arg1 harg1 arg2 harg2 arg3 harg3 arg4 harg4 x0 x1)]
  unfold kernelRun0
  dsimp only
  rw [canon_loop2_miss _ _ _ _ _ _ _ _ _ _ _ _ _ _ _ _ _ _ (le_refl _) _ _ rfl]
  rw [← List.append_nil (pb_k0_t1 _ _ _ _ _ _ _ _ _ _ _ _ _ _ _ _)]
  rw [canon_loop1_hit _ _ _ _ _ _ _ _ _ _ _ _ _ _ _ _ (le_refl _) j j.isLt [] _ (ix3 (0 : Fin 1) r d) rfl hq (Nat.zero_add _).symm]
  refine (pay4_apply _ _ j _ r d).trans ?_
  unfold kernelRun0.sl.v11 kernelRun0.sl.v13 kernelRun0.sl.HS0_1
  rw [hqe]
  refine tOut_eq_out x wq wk wv B (256 * j.val) r hrow d _ _ _ ?_ ?_ ?_ ?_
  · intro jj
    refine (load_tile1 arg4 _ _ j r _).trans ?_
    refine (scratch_apply arg1 harg1 arg2 harg2 x0 x1 (0 : Fin 2) _ _ _).trans ?_
    unfold proj
    exact Finset.sum_congr rfl fun cc _ => by rw [hx, hF.q]
  · intro jj hjj
    refine (load_tile1 arg4 _ _ j r _).trans ?_
    refine (scratch_apply arg1 harg1 arg2 harg2 x0 x1 (0 : Fin 2) _ _ _).trans ?_
    exact Finset.sum_eq_zero fun cc _ => by rw [hF.z _ cc hjj jj.isLt, mul_zero]
  · intro k jj
    refine (load_cols arg4 _ _ 128 _ k _ (by omega)).trans ?_
    refine (scratch_apply arg1 harg1 arg2 harg2 x0 x1 (0 : Fin 2) _ _ _).trans ?_
    unfold proj
    exact Finset.sum_congr rfl fun cc _ => by rw [hx, hF.k]
  · intro k
    refine (load_cols arg4 _ _ 256 _ k _ (by omega)).trans ?_
    refine (scratch_apply arg1 harg1 arg2 harg2 x0 x1 (0 : Fin 2) _ _ _).trans ?_
    unfold proj
    exact Finset.sum_congr rfl fun cc _ => by rw [hx, hF.v]

/-- An element of sequence 1 of the output block is the specification's output for that sequence. -/
theorem out0_2_seq1 (c : Dev nD) (i : grid0.Coords) (arg1 : Memref sig .tc .vmem S2x1024x768 .f32) (harg1 : arg1.IsWhole) (arg2 : Memref sig .tc .vmem S384x768 .f32) (harg2 : arg2.IsWhole) (arg3 : Memref sig .tc .vmem S2x1024x64 .f32) (harg3 : arg3.IsWhole) (arg4 : Memref sig .tc .vmem S1024x384 .f32) (harg4 : arg4.IsWhole)
    (x0 : Vec Ideal S2x1024x768 .f32) (x1 : Vec Ideal S384x768 .f32)
    (x : SX.Idx → EReal) (wq wk wv : SW.Idx → EReal) (B : Fin 32)
    (hx : ∀ (s : Fin 1024) (cc : Fin 768), x0 (ix3 (1 : Fin 2) s cc) = x (ix3 B s cc)) (hF : Fused x1 wq wk wv)
    (j : Fin k0_t2_loop.trips) (r : Fin 256) (d : Fin 64) (q : Fin 1024) (hq : q.val = 256 * j.val + r.val) :
    out0_2 (F := Ideal) c i arg1 harg1 arg2 harg2 arg3 harg3 arg4 harg4 x0 x1 (ix3 (1 : Fin 2) q d) = out x wq wk wv B q d := by
  have hrow : 256 * j.val + r.val < 1024 := by have := q.isLt; omega
  have hqe : q = ⟨256 * j.val + r.val, hrow⟩ := Fin.ext hq
  unfold out0_2
  rw [View.read_writes_eq_canon _ _ _ (cover0_2 c i arg1 harg1 arg2 harg2 arg3 harg3 arg4 harg4 x0 x1)]
  unfold kernelRun0
  dsimp only
  rw [canon_loop2_hit _ _ _ _ _ _ _ _ _ _ _ _ _ _ _ _ _ _ (le_refl _) j j.isLt _ _ (ix3 (0 : Fin 1) r d) rfl hq (Nat.zero_add _).symm]
  refine (pay1_apply _ _ j _ r d).trans ?_
  unfold kernelRun0.sl.r kernelRun0.sl.r_1 kernelRun0.sl.HS0_2
  rw [hqe]
  refine tOut_eq_out x wq wk wv B (256 * j.val) r hrow d _ _ _ ?_ ?_ ?_ ?_
  · intro jj
    refine (load_tile2 arg4 _ _ j r _).trans ?_
    refine (scratch_apply arg1 harg1 arg2 harg2 x0 x1 (1 : Fin 2) _ _ _).trans ?_
    unfold proj
    exact Finset.sum_congr rfl fun cc _ => by rw [hx, hF.q]
  · intro jj hjj
    refine (load_tile2 arg4 _ _ j r _).trans ?_
    refine (scratch_apply arg1 harg1 arg2 harg2 x0 x1 (1 : Fin 2) _ _ _).trans ?_
    exact Finset.sum_eq_zero fun cc _ => by rw [hF.z _ cc hjj jj.isLt, mul_zero]
  · intro k jj
    refine (load_cols arg4 _ _ 128 _ k _ (by omega)).trans ?_
    refine (scratch_apply arg1 harg1 arg2 harg2 x0 x1 (1 : Fin 2) _ _ _).trans ?_
    unfold proj
    exact Finset.sum_congr rfl fun cc _ => by rw [hx, hF.k]
  · intro k
    refine (load_cols arg4 _ _ 256 _ k _ (by omega)).trans ?_
    refine (scratch_apply arg1 harg1 arg2 harg2 x0 x1 (1 : Fin 2) _ _ _).trans ?_
    unfold proj
    exact Finset.sum_congr rfl fun cc _ => by rw [hx, hF.v]

end Cert.KernelIdeal.Frm

end
-- ==== Proof.LibStackOfThree.lean ====
/-
  A stablehlo concatenate of THREE arrays of one shape along axis 0, read at coordinates: three [r,c] matrices stacked
  into [R,c] — row r·g + q, column k of the stack is entry (q,k) of piece g. Any extents and element type.
-/
import Idealize.ShloMosaic.Lib.Pipeline.Value
import Idealize.ShloMosaic.Lib.ValueIdx

namespace Idealize.ShloMosaic.ValueIdx

open Idealize.ShloMosaic

variable {α : Type}

/-- Three `[r, c]` matrices stacked along the rows: row `r·g + q`, column `k` of the stack is entry `(q, k)` of piece `g`. -/
theorem concatenate_three_rows_apply {r c R : Nat} (x0 x1 x2 : (⟨2, ![r, c]⟩ : Shape).Idx → α)
    (h : Shape.Concatenates ([⟨2, ![r, c]⟩, ⟨2, ![r, c]⟩, ⟨2, ![r, c]⟩] : List Shape) ⟨2, ![R, c]⟩ (0 : Fin 2))
    (g : Fin 3) (q : Fin r) (k : Fin c) (n : Fin R) (hn : n.val = r * g.val + q.val) :
    concatenate ⟨2, ![R, c]⟩ (0 : Fin 2) [⟨⟨2, ![r, c]⟩, x0⟩, ⟨⟨2, ![r, c]⟩, x1⟩, ⟨⟨2, ![r, c]⟩, x2⟩] h (ix2 n k)
      = (match g with | ⟨0, _⟩ => x0 | ⟨1, _⟩ => x1 | ⟨2, _⟩ => x2) (ix2 q k) := by
  have hi : ∀ b : Fin 2, b.cast rfl ≠ (0 : Fin 2) → ((ix2 q k : (⟨2, ![r, c]⟩ : Shape).Idx) b).val = ((ix2 n k : (⟨2, ![R, c]⟩ : Shape).Idx) (b.cast rfl)).val :=
    fun b hb => by
      match b with
      | ⟨0, _⟩ => exact absurd rfl hb
      | ⟨1, _⟩ => rfl
  match g with
  | ⟨0, _⟩ =>
    exact concatenate_apply_piece (t := ⟨2, ![R, c]⟩) (0 : Fin 2) [⟨⟨2, ![r, c]⟩, x0⟩, ⟨⟨2, ![r, c]⟩, x1⟩, ⟨⟨2, ![r, c]⟩, x2⟩] h (ix2 n k) 0 (by show 0 < 3; omega) ⟨2, ![r, c]⟩ x0 rfl rfl _ rfl (ix2 q k) hi
      (by show 0 + q.val = n.val; simp only [hn]; omega)
  | ⟨1, _⟩ =>
    exact concatenate_apply_piece (t := ⟨2, ![R, c]⟩) (0 : Fin 2) [⟨⟨2, ![r, c]⟩, x0⟩, ⟨⟨2, ![r, c]⟩, x1⟩, ⟨⟨2, ![r, c]⟩, x2⟩] h (ix2 n k) 1 (by show 1 < 3; omega) ⟨2, ![r, c]⟩ x1 rfl rfl _ rfl (ix2 q k) hi
      (by show r + 0 + q.val = n.val; simp only [hn]; omega)
  | ⟨2, _⟩ =>
    exact concatenate_apply_piece (t := ⟨2, ![R, c]⟩) (0 : Fin 2) [⟨⟨2, ![r, c]⟩, x0⟩, ⟨⟨2, ![r, c]⟩, x1⟩, ⟨⟨2, ![r, c]⟩, x2⟩] h (ix2 n k) 2 (by show 2 < 3; omega) ⟨2, ![r, c]⟩ x2 rfl rfl _ rfl (ix2 q k) hi
      (by show r + (r + 0) + q.val = n.val; simp only [hn]; omega)

end Idealize.ShloMosaic.ValueIdx
-- ==== Proof.LibPadRows.lean ====
/-
  A stablehlo pad of an [n,c] matrix by rows at the bottom only (low [0,0], high [p,0], no interior padding), read at
  coordinates of the [N,c] result: a row below n is the operand's row, a row from n on is the padding value.
  Any extents and element type.
-/
import Idealize.ShloMosaic.Lib.KernelVsHost
import Idealize.ShloMosaic.Lib.ValueIdx

namespace Idealize.ShloMosaic.ValueIdx

open Idealize.ShloMosaic

variable {α : Type}

/-- A row of the operand: the padded matrix at (q, k), q < n, is the operand at (q, k). -/
theorem pad_rows_apply_of_lt {n c N p : Nat} (x : (⟨2, ![n, c]⟩ : Shape).Idx → α) {u : Shape} (v : u.Idx → α)
    (h : (⟨2, ![n, c]⟩ : Shape).Pads (![0, 0] : Fin 2 → Nat) ![p, 0] ![0, 0] ⟨2, ![N, c]⟩) (hu : 0 < u.numel)
    (q : Fin N) (k : Fin c) (q' : Fin n) (hq : q.val = q'.val) :
    pad ⟨2, ![N, c]⟩ ![0, 0] ![p, 0] ![0, 0] x v h hu (ix2 q k) = x (ix2 q' k) :=
  pad_apply_of_inside _ _ _ x v h hu (ix2 q k) (ix2 q' k) (fun a => by
    match a with
    | ⟨0, _⟩ => show q.val = 0 + q'.val * (0 + 1); omega
    | ⟨1, _⟩ => show k.val = 0 + k.val * (0 + 1); omega)

/-- A padding row: the padded matrix at (q, k), n ≤ q, is the padding value. -/
theorem pad_rows_apply_of_ge {n c N p : Nat} (x : (⟨2, ![n, c]⟩ : Shape).Idx → α) {u : Shape} (v : u.Idx → α)
    (h : (⟨2, ![n, c]⟩ : Shape).Pads (![0, 0] : Fin 2 → Nat) ![p, 0] ![0, 0] ⟨2, ![N, c]⟩) (hu : 0 < u.numel)
    (q : Fin N) (k : Fin c) (hq : n ≤ q.val) :
    pad ⟨2, ![N, c]⟩ ![0, 0] ![p, 0] ![0, 0] x v h hu (ix2 q k) = v (Shape.Idx.first hu) :=
  pad_apply_of_not_inside _ _ _ x v h hu (ix2 q k) (0 : Fin 2) (fun hin => by
    have h3 : (q.val - 0) / (0 + 1) < n := hin.2.2
    rw [Nat.sub_zero, Nat.div_one] at h3
    omega)

end Idealize.ShloMosaic.ValueIdx
-- ==== Proof.KFinal.lean ====
/-
  The idealized kernel's result array is the attention specification of its arguments.

  Before the region the host pads each [64,768] weight with 64 rows of the converted integer zero and stacks the
  three padded weights, so the [384,768] operand has the query, key and value weights at rows 0, 128 and 256 and
  zeros in rows 64–127 (`fused`). The activations' window hands point t the sequences 2t and 2t+1, the weights'
  window the whole operand, and the output window writes point t's block to sequences 2t and 2t+1 of the result.
  So what point t writes back is the specification's output restricted to its block (`flushed_eq`), the sixteen
  blocks cover the result, and after the run the result array is the specification's output (`run_attn`).
-/
import proofs.«115010_j69922067579438_2_alg».proof.Proof.KBlock
import proofs.«115010_j69922067579438_2_alg».proof.Proof.LibStackOfThree
import proofs.«115010_j69922067579438_2_alg».proof.Proof.LibPadRows
import Idealize.ShloMosaic.Lib.StableHlo.Run

set_option maxRecDepth 16384

noncomputable section

namespace Cert.KernelIdeal.Frm

open Cert.KernelIdeal Cert.KernelIdeal.Gen Cert.KernelIdeal.Tile Cert.Attention Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (mI : (ℓ : Loc nD τ sig) → Buf (Elt Ideal) ℓ)

/-- A [64,768] weight padded to [128,768] with rows of the converted integer zero. -/
def padW (w : S64x768.Idx → EReal) : S128x768.Idx → EReal :=
  pad S128x768 ![0, 0] ![64, 0] ![0, 0] w (sitofp (F := Ideal) .f32 (constantI S_ 32 0#32)) pads_S64x768_S128x768_0640_000 h_S_

/-- The integer zero converted to a float is zero. -/
theorem sitofp_zero : FloatOps.sitofp (F := Ideal) .f32 (0#32 : BitVec 32) = 0 := by
  show ((((0#32 : BitVec 32).toInt : ℤ) : ℝ) : EReal) = _
  have e : (0#32 : BitVec 32).toInt = 0 := by decide
  rw [e]; simp

theorem padW_lo (w : S64x768.Idx → EReal) (jj : Fin 64) (cc : Fin 768) :
    padW w (ix2 (⟨jj.val, by omega⟩ : Fin 128) cc) = w (ix2 jj cc) :=
  pad_rows_apply_of_lt w _ pads_S64x768_S128x768_0640_000 h_S_ _ cc jj rfl

theorem padW_hi (w : S64x768.Idx → EReal) (jj : Fin 128) (cc : Fin 768) (h : 64 ≤ jj.val) : padW w (ix2 jj cc) = 0 :=
  (pad_rows_apply_of_ge w _ pads_S64x768_S128x768_0640_000 h_S_ jj cc h).trans sitofp_zero

/-- The fused operand as the region finds it: the three padded weights stacked. -/
theorem V_main_v3 (c : Dev nD) : (V mI c main_v3 : S384x768.Idx → EReal)
    = concatenate S384x768 0 [⟨S128x768, padW (mI ((c : Thread nD τ).loc main_arg1))⟩, ⟨S128x768, padW (mI ((c : Thread nD τ).loc main_arg2))⟩, ⟨S128x768, padW (mI ((c : Thread nD τ).loc main_arg3))⟩]
        concatenates_S128x768_S128x768_S128x768_S384x768_d0 := by
  dsimp only [V, stretches]
  simp only [hostOps0, hostOps0_1, hostOps0_2, hostOps0_3, hostOps0_4, hostOps0_5, hostOps0_6, List.flatten_cons, List.flatten_nil, List.append_nil, List.cons_append, List.nil_append]
  after_results
  rfl

/-- Its rows: the three weights at 0, 128 and 256, zeros in rows 64–127. -/
theorem fused (c : Dev nD) : Fused (V mI c main_v3) (mI ((c : Thread nD τ).loc main_arg1)) (mI ((c : Thread nD τ).loc main_arg2)) (mI ((c : Thread nD τ).loc main_arg3)) where
  q jj cc := by
    show (V mI c main_v3 : S384x768.Idx → EReal) (ix2 (⟨jj.val, by omega⟩ : Fin 384) cc) = _
    rw [V_main_v3]
    exact (concatenate_three_rows_apply _ _ _ _ (0 : Fin 3) (⟨jj.val, by omega⟩ : Fin 128) cc _ (by show jj.val = 128 * 0 + jj.val; omega)).trans (padW_lo _ jj cc)
  z jj cc h1 h2 := by
    show (V mI c main_v3 : S384x768.Idx → EReal) (ix2 (⟨jj.val, by omega⟩ : Fin 384) cc) = _
    rw [V_main_v3]
    exact (concatenate_three_rows_apply _ _ _ _ (0 : Fin 3) jj cc _ (by show jj.val = 128 * 0 + jj.val; omega)).trans (padW_hi _ jj cc h1)
  k jj cc := by
    show (V mI c main_v3 : S384x768.Idx → EReal) (ix2 (⟨128 + jj.val, by omega⟩ : Fin 384) cc) = _
    rw [V_main_v3]
    exact (concatenate_three_rows_apply _ _ _ _ (1 : Fin 3) (⟨jj.val, by omega⟩ : Fin 128) cc _ (by show 128 + jj.val = 128 * 1 + jj.val; omega)).trans (padW_lo _ jj cc)
  v jj cc := by
    show (V mI c main_v3 : S384x768.Idx → EReal) (ix2 (⟨256 + jj.val, by omega⟩ : Fin 384) cc) = _
    rw [V_main_v3]
    exact (concatenate_three_rows_apply _ _ _ _ (2 : Fin 3) (⟨jj.val, by omega⟩ : Fin 128) cc _ (by show 256 + jj.val = 128 * 2 + jj.val; omega)).trans (padW_lo _ jj cc)

/-- The windows' block indices over the grid: the activations and the result move with the point, the weights stay. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

theorem t_lt (t : Fin cfg0.N) : t.val < 16 := by
  have h := t.isLt
  have e : cfg0.N = 16 := N_0
  omega

/-- Point t's activations: sequences 2t and 2t+1 of the argument. -/
theorem iblk0_apply (c : Dev nD) (t : Fin cfg0.N) (b : Fin 2) (s : Fin 1024) (cc : Fin 768) :
    iblk mI c 0 t (ix3 b s cc) = (mI ((c : Thread nD τ).loc main_arg0)) (ix3 (⟨2 * t.val + b.val, by have := t_lt t; omega⟩ : Fin 32) s cc) := by
  obtain ⟨e0, e1, e2, -⟩ := idx_facts t
  show V mI c main_arg0 (((cfg0.win 0).blk t).view.emb (ix3 b s cc)) = _
  rw [V_main_arg0]
  refine congrArg _ (funext fun a => Fin.ext ?_)
  match a with
  | ⟨0, _⟩ => show win0_0.index t (0 : Fin 3) * 2 + 1 * b.val = 2 * t.val + b.val; omega
  | ⟨1, _⟩ => show win0_0.index t (1 : Fin 3) * 1024 + 1 * s.val = s.val; omega
  | ⟨2, _⟩ => show win0_0.index t (2 : Fin 3) * 768 + 1 * cc.val = cc.val; omega

/-- Point t's weights: the whole fused operand. -/
theorem iblk1_eq (c : Dev nD) (t : Fin cfg0.N) : (iblk mI c 1 t : S384x768.Idx → EReal) = V mI c main_v3 := by
  obtain ⟨-, -, -, e0, e1, -⟩ := idx_facts t
  funext y
  show V mI c main_v3 (((cfg0.win 1).blk t).view.emb y) = _
  refine congrArg _ (funext fun a => Fin.ext ?_)
  match a with
  | ⟨0, _⟩ => show win0_1.index t (0 : Fin 2) * 384 + 1 * (y 0).val = (y 0).val; omega
  | ⟨1, _⟩ => show win0_1.index t (1 : Fin 2) * 768 + 1 * (y 1).val = (y 1).val; omega

/-- What point t writes back is the specification's output on its block. -/
theorem flushed_eq (c : Dev nD) (t : Fin cfg0.N) :
    (dats mI 0 c).flushed 2 t = ((cfg0.win 2).blk t).view.read (Elt Ideal) (attn (mI ((c : Thread nD τ).loc main_arg0)) (mI ((c : Thread nD τ).loc main_arg1)) (mI ((c : Thread nD τ).loc main_arg2)) (mI ((c : Thread nD τ).loc main_arg3))) := by
  obtain ⟨-, -, -, -, -, e0, e1, e2⟩ := idx_facts t
  have ht := t_lt t
  show (cfg0.win 2).cut (grid0.coords t) ((dats mI 0 c).after 2 t) = _
  rw [after0_2]
  unfold outsAt0
  funext y
  obtain ⟨b, q, d, rfl⟩ : ∃ (b : Fin 2) (q : Fin 1024) (d : Fin 64), y = ix3 b q d := ⟨y 0, y 1, y 2, eq_ix3 y⟩
  show out0_2 (F := Ideal) c (grid0.coords t) (ms0_0 t) (hs0_0 t) (ms0_1 t) (hs0_1 t) (ms0_2 t) (hs0_2 t) scM0_0 (Memref.isWhole_whole _) (iblk mI c 0 t) (iblk mI c 1 t) (ix3 b q d)
    = attn (mI ((c : Thread nD τ).loc main_arg0)) (mI ((c : Thread nD τ).loc main_arg1)) (mI ((c : Thread nD τ).loc main_arg2)) (mI ((c : Thread nD τ).loc main_arg3)) (((cfg0.win 2).blk t).view.emb (ix3 b q d))
  have hemb : ((cfg0.win 2).blk t).view.emb (ix3 b q d) = ix3 (⟨2 * t.val + b.val, by omega⟩ : Fin 32) q d := funext fun a => Fin.ext (by
    match a with
    | ⟨0, _⟩ => show win0_2.index t (0 : Fin 3) * 2 + 1 * b.val = 2 * t.val + b.val; omega
    | ⟨1, _⟩ => show win0_2.index t (1 : Fin 3) * 1024 + 1 * q.val = q.val; omega
    | ⟨2, _⟩ => show win0_2.index t (2 : Fin 3) * 64 + 1 * d.val = d.val; omega)
  rw [hemb, attn_ix3]
  have hq : q.val = 256 * (q.val / 256) + q.val % 256 := (Nat.div_add_mod q.val 256).symm
  have hj : q.val / 256 < 4 := by have := q.isLt; omega
  have hF : Fused (iblk mI c 1 t) (mI ((c : Thread nD τ).loc main_arg1)) (mI ((c : Thread nD τ).loc main_arg2)) (mI ((c : Thread nD τ).loc main_arg3)) := by rw [iblk1_eq]; exact fused mI c
  match b with
  | ⟨0, hb⟩ =>
    exact out0_2_seq0 c _ _ _ _ _ _ _ _ _ (iblk mI c 0 t) (iblk mI c 1 t) (mI ((c : Thread nD τ).loc main_arg0)) (mI ((c : Thread nD τ).loc main_arg1)) (mI ((c : Thread nD τ).loc main_arg2)) (mI ((c : Thread nD τ).loc main_arg3)) _
      (fun s cc => iblk0_apply mI c t (0 : Fin 2) s cc) hF ⟨q.val / 256, by rw [trips1]; exact hj⟩ ⟨q.val % 256, Nat.mod_lt _ (by omega)⟩ d q hq
  | ⟨1, hb⟩ =>
    exact out0_2_seq1 c _ _ _ _ _ _ _ _ _ (iblk mI c 0 t) (iblk mI c 1 t) (mI ((c : Thread nD τ).loc main_arg0)) (mI ((c : Thread nD τ).loc main_arg1)) (mI ((c : Thread nD τ).loc main_arg2)) (mI ((c : Thread nD τ).loc main_arg3)) _
      (fun s cc => iblk0_apply mI c t (1 : Fin 2) s cc) hF ⟨q.val / 256, by rw [trips2]; exact hj⟩ ⟨q.val % 256, Nat.mod_lt _ (by omega)⟩ d q hq

/-- An index of the result is in point t's block iff each coordinate is in the block's range. -/
theorem mem_blk2 (t : Fin cfg0.N) (i : S32x1024x64.Idx) :
    i ∈ ((cfg0.win 2).blk t).view.set ↔ ∀ a : Fin 3, win0_2.index t a * S2x1024x64.size a ≤ (i a).val ∧ (i a).val < win0_2.index t a * S2x1024x64.size a + S2x1024x64.size a := by
  show i ∈ ((View.whole main_v4).slice (win0_2.rect t)).set ↔ _
  rw [View.set_slice_whole, Rect.mem_set_unit]
  exact Iff.rfl

/-- Every index of the result is in the block of the point that owns its pair of sequences. -/
theorem cover (i : S32x1024x64.Idx) : ∃ t : Fin cfg0.N, (cfg0.win 2).flush t = true ∧ i ∈ ((cfg0.win 2).blk t).view.set := by
  have hi0 : (i 0).val < 32 := (i 0).isLt
  have hi1 : (i 1).val < 1024 := (i 1).isLt
  have hi2 : (i 2).val < 64 := (i 2).isLt
  have hN : cfg0.N = 16 := N_0
  let t : Fin cfg0.N := ⟨(i 0).val / 2, by omega⟩
  obtain ⟨-, -, -, -, -, e0, e1, e2⟩ := idx_facts t
  have e0' : win0_2.index t (0 : Fin 3) = (i 0).val / 2 := e0
  refine ⟨t, flush0_2 t, ?_⟩
  rw [mem_blk2]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 64 ≤ (i 2).val ∧ (i 2).val < win0_2.index t (2 : Fin 3) * 64 + 64; omega

/-- The result array after the run. -/
theorem final (c : Dev nD) : (dats mI 0 c).arrAt 2 cfg0.N = attn (mI ((c : Thread nD τ).loc main_arg0)) (mI ((c : Thread nD τ).loc main_arg1)) (mI ((c : Thread nD τ).loc main_arg2)) (mI ((c : Thread nD τ).loc main_arg3)) :=
  (dats mI 0 c).arrAt_eq_of_cover 2 (attn (mI ((c : Thread nD τ).loc main_arg0)) (mI ((c : Thread nD τ).loc main_arg1)) (mI ((c : Thread nD τ).loc main_arg2)) (mI ((c : Thread nD τ).loc main_arg3))) (fun t _ => flushed_eq mI c t) (cover)

/-- The run of the idealized kernel: the result is the attention specification of the arguments, which end unchanged. -/
theorem run_attn : θ_run defs (onTc (τ := τ) (main (F := Ideal))) ⟨mI, fun _ => 0, ρ⟩ fun r => ∀ c : Dev nD,
      r.2.mem ((c : Thread nD τ).loc main_v4) = attn (mI ((c : Thread nD τ).loc main_arg0)) (mI ((c : Thread nD τ).loc main_arg1)) (mI ((c : Thread nD τ).loc main_arg2)) (mI ((c : Thread nD τ).loc main_arg3))
      ∧ r.2.mem ((c : Thread nD τ).loc main_arg0) = mI ((c : Thread nD τ).loc main_arg0)
      ∧ r.2.mem ((c : Thread nD τ).loc main_arg1) = mI ((c : Thread nD τ).loc main_arg1)
      ∧ r.2.mem ((c : Thread nD τ).loc main_arg2) = mI ((c : Thread nD τ).loc main_arg2)
      ∧ r.2.mem ((c : Thread nD τ).loc main_arg3) = mI ((c : Thread nD τ).loc main_arg3) :=
  (θ_run defs _ _).mono (fun r h c => ⟨((h c).1 2).trans (final mI c),
      ((h c).1 0).trans (((dats mI 0 c).arrAt_in 0 rfl _).trans ((A_eq mI c 0).trans (V_main_arg0 mI c))),
      ((h c).2 main_arg1 (Pipeline.mem_restRefs_of main_arg1 (by decide) (by decide))).trans (V_main_arg1 mI c),
      ((h c).2 main_arg2 (Pipeline.mem_restRefs_of main_arg2 (by decide) (by decide))).trans (V_main_arg2 mI c),
      ((h c).2 main_arg3 (Pipeline.mem_restRefs_of main_arg3 (by decide) (by decide))).trans (V_main_arg3 mI c)⟩)
    (run_main mI ρ)

end Cert.KernelIdeal.Frm

end
-- ==== Proof.RefRead.lean ====
/-
  The reference program's run and its stages read at an index (both generated) are brought in here;
  the statement that the composed stages are single-head causal attention lives in the modules that import this one.
-/
import proofs.«115010_j69922067579438_2_alg».proof.Proof.Gen.ReferenceIdeal.Run
import proofs.«115010_j69922067579438_2_alg».proof.Proof.Gen.ReferenceIdeal.Read
-- ==== Proof.RefAttention.lean ====
/-
  The reference program computes single-head causal attention.

  Read one stage at a time at coordinates: the three projections are `proj`; the batched product of queries
  and keys times the scale is `score`; the lower-triangular selection (row index ≥ column index, as signed
  32-bit words of numbers below 1024) against the fill is `masked`; the maximum over keys folded from −∞,
  joined once more with −∞, is `rowMax`; the exponential of the difference is `weight`; its sum over keys
  from zero is `norm`; the quotient times the values summed over keys is the output.
-/
import proofs.«115010_j69922067579438_2_alg».proof.Proof.RefRead
import proofs.«115010_j69922067579438_2_alg».proof.Proof.Attention
import proofs.«115010_j69922067579438_2_alg».proof.Proof.LibSmallWords
import proofs.«115010_j69922067579438_2_alg».proof.Proof.LibRowReduce
import proofs.«115010_j69922067579438_2_alg».proof.Proof.LibIndicator
import Idealize.ShloMosaic.PureOps.Ideal.Laws
import Idealize.ShloMosaic.PureOps.Reduce

noncomputable section

namespace Cert.ReferenceIdeal.RefAttn

open Cert.ReferenceIdeal Cert.ReferenceIdeal.Gen Cert.ReferenceIdeal.Read Cert.Attention
open Idealize.ShloMosaic Idealize.ShloMosaic.ValueIdx

variable (x : (⟨S32x1024x768, .f32⟩ : BufTy).Contents (Elt Ideal)) (w wq wk wv : (⟨S64x768, .f32⟩ : BufTy).Contents (Elt Ideal))

/-- A projection stage at coordinates. -/
theorem proj_v0 (b : Fin 32) (s : Fin 1024) (d : Fin 64) :
    val_main_v0 (F := Ideal) x w (ix3 b s d) = proj x w b s d := by
  rw [val_main_v0_apply]; unfold proj
  refine Finset.sum_congr rfl fun c _ => ?_
  have el : lidx_main_v0 (ix3 b s d) c = ix3 b s c := funext fun a => Fin.ext (by
    match a with | ⟨0, _⟩ => rfl | ⟨1, _⟩ => rfl | ⟨2, _⟩ => rfl)
  have er : ridx_main_v0 (ix3 b s d) c = ix2 d c := funext fun a => Fin.ext (by
    match a with | ⟨0, _⟩ => rfl | ⟨1, _⟩ => rfl)
  rw [el, er]

theorem proj_v1 (b : Fin 32) (s : Fin 1024) (d : Fin 64) :
    val_main_v1 (F := Ideal) x w (ix3 b s d) = proj x w b s d := proj_v0 x w b s d
theorem proj_v2 (b : Fin 32) (s : Fin 1024) (d : Fin 64) :
    val_main_v2 (F := Ideal) x w (ix3 b s d) = proj x w b s d := proj_v0 x w b s d

/-- The scaled scores at coordinates. -/
theorem score_v5 (b : Fin 32) (q k : Fin 1024) :
    val_main_v5 (F := Ideal) x wq wk (ix3 b q k) = score x wq wk b q k := by
  rw [val_main_v5_apply, val_main_v3_apply, val_main_v4_apply, val_main_cst_apply]
  unfold score scale
  have e : ∀ d : Fin 64, val_main_v0 (F := Ideal) x wq (lidx_main_v3 (ix3 b q k) d) * val_main_v1 (F := Ideal) x wk (ridx_main_v3 (ix3 b q k) d)
      = proj x wq b q d * proj x wk b k d := fun d => by
    have el : lidx_main_v3 (ix3 b q k) d = ix3 b q d := funext fun a => Fin.ext (by
      match a with | ⟨0, _⟩ => rfl | ⟨1, _⟩ => rfl | ⟨2, _⟩ => rfl)
    have er : ridx_main_v3 (ix3 b q k) d = ix3 b k d := funext fun a => Fin.ext (by
      match a with | ⟨0, _⟩ => rfl | ⟨1, _⟩ => rfl | ⟨2, _⟩ => rfl)
    rw [el, er, proj_v0, proj_v1]
  rw [Finset.sum_congr rfl fun d _ => e d]; rfl

/-- The lower-triangular selection's bit at (q, k) is set exactly when k ≤ q. -/
theorem tril_bit (q k : Fin 1024) : val_main_v7 (F := Ideal) (ix2 q k) = 1#1 ↔ k.val ≤ q.val := by
  rw [val_main_v7_apply, Indicator.select_eq_ite, val_main_v6_apply, val_main_c_apply, val_main_call0_v5_apply,
    val_main_call0_c_0_apply, val_main_call0_v4_apply, val_main_call0_v2_apply, val_main_call0_v0_apply,
    val_main_call0_v1_apply, val_main_call0_c_apply, val_main_call0_v3_apply, SmallWords.addi_zero]
  have h := SmallWords.cmpi_sge_ofNat q.val k.val (by have := q.isLt; omega) (by have := k.isLt; omega)
  show (if IntOp.cmpi .sge (BitVec.ofNat 32 q.val) (BitVec.ofNat 32 k.val) = 1#1 then 1#1 else 0#1) = 1#1 ↔ _
  by_cases hc : IntOp.cmpi .sge (BitVec.ofNat 32 q.val) (BitVec.ofNat 32 k.val) = 1#1
  · rw [if_pos hc]; exact ⟨fun _ => h.mp hc, fun _ => rfl⟩
  · rw [if_neg hc]; exact ⟨fun e => absurd e (by decide), fun e => absurd (h.mpr e) hc⟩

/-- The masked scores at coordinates. -/
theorem masked_v8 (b : Fin 32) (q k : Fin 1024) :
    val_main_v8 (F := Ideal) x wq wk (ix3 b q k) = masked x wq wk b q k := by
  rw [val_main_v8_apply, Indicator.select_eq_ite, val_main_call1_v1_apply, val_main_cst_0_apply, score_v5,
    val_main_call1_v0_apply]
  have ei : idx_main_call1_v0 (ix3 b q k) = ix2 q k := funext fun a => Fin.ext (by
    match a with | ⟨0, _⟩ => rfl | ⟨1, _⟩ => rfl)
  rw [ei]
  unfold masked fill
  exact if_congr (tril_bit q k) rfl rfl

/-- The coordinate a reduction over the last axis inserts. -/
theorem lift_last (h : S32x1024x1024.Reduces [2] S32x1024) (b : Fin 32) (q k : Fin 1024) :
    h.lift (ix2 b q) k = ix3 b q k := by
  funext c
  apply Fin.ext
  match c with
  | ⟨0, _⟩ => rfl
  | ⟨1, _⟩ => rfl
  | ⟨2, _⟩ => rfl

/-- The row maximum at coordinates. -/
theorem rowMax_v11 (b : Fin 32) (q : Fin 1024) :
    val_main_v11 (F := Ideal) x wq wk (ix2 b q) = rowMax x wq wk b q := by
  have hR : S32x1024x1024.Reduces [2] S32x1024 := by decide
  rw [val_main_v11_apply, val_main_v10_apply, val_main_cst_2_apply]
  unfold val_main_v9
  rw [Host.reduce_eq_fold_single FloatOps.maximumf _ _ reducesTo_S32x1024x1024_S32x1024_d2 hR h_S_, val_main_cst_1_apply]
  show max (Ideal.ofBits .f32 0xFF800000#32) ((Finset.univ : Finset (Fin 1024)).fold max (Ideal.ofBits .f32 0xFF800000#32)
    (val_main_v8 (F := Ideal) x wq wk ∘ hR.lift (ix2 b q))) = _
  rw [RowReduce.ofBits_neg_inf, max_eq_right bot_le]
  unfold rowMax
  refine congrArg (fun f : Fin 1024 → EReal => (Finset.univ : Finset (Fin 1024)).fold max ⊥ f) (funext fun (k : Fin 1024) => ?_)
  exact (congrArg (val_main_v8 (F := Ideal) x wq wk) (lift_last hR b q k)).trans (masked_v8 x wq wk b q k)

/-- The softmax weights at coordinates. -/
theorem weight_v15 (b : Fin 32) (q k : Fin 1024) :
    val_main_v15 (F := Ideal) x wq wk (ix3 b q k) = weight x wq wk b q k := by
  rw [val_main_v15_apply, val_main_v14_apply, val_main_v13_apply, val_main_v12_apply, masked_v8]
  have ei : idx_main_v12 (idx_main_v13 (ix3 b q k)) = ix2 b q := funext fun a => Fin.ext (by
    match a with | ⟨0, _⟩ => rfl | ⟨1, _⟩ => rfl)
  rw [ei, rowMax_v11]; rfl

/-- The normaliser at coordinates. -/
theorem denom_v16 (b : Fin 32) (q : Fin 1024) :
    val_main_v16 (F := Ideal) x wq wk (ix2 b q) = denom x wq wk b q := by
  rw [val_main_v16_apply, val_main_cst_3_apply]
  show Ideal.ofBits .f32 0x00000000#32 + _ = _
  rw [Ideal.ofBits_zero_f32, zero_add]
  unfold denom
  refine Finset.sum_congr rfl fun k _ => ?_
  have ei : idx_main_v16 (ix2 b q) k = ix3 b q k := funext fun a => Fin.ext (by
    match a with | ⟨0, _⟩ => rfl | ⟨1, _⟩ => rfl | ⟨2, _⟩ => rfl)
  rw [ei, weight_v15]

/-- The normalised weights at coordinates. -/
theorem prob_v19 (b : Fin 32) (q k : Fin 1024) :
    val_main_v19 (F := Ideal) x wq wk (ix3 b q k) = Ideal.div (weight x wq wk b q k) (denom x wq wk b q) := by
  rw [val_main_v19_apply, val_main_v18_apply, val_main_v17_apply, weight_v15]
  have ei : idx_main_v17 (idx_main_v18 (ix3 b q k)) = ix2 b q := funext fun a => Fin.ext (by
    match a with | ⟨0, _⟩ => rfl | ⟨1, _⟩ => rfl)
  rw [ei, denom_v16]; rfl

/-- The reference's result is the attention output. -/
theorem result_eq : val_main_v20 (F := Ideal) x wq wk wv = attn x wq wk wv := by
  funext i
  obtain ⟨b, q, d, rfl⟩ : ∃ (b : Fin 32) (q : Fin 1024) (d : Fin 64), i = ix3 b q d := ⟨i 0, i 1, i 2, eq_ix3 i⟩
  rw [val_main_v20_apply, attn_ix3]
  unfold out
  refine Finset.sum_congr rfl fun k _ => ?_
  have el : lidx_main_v20 (ix3 b q d) k = ix3 b q k := funext fun a => Fin.ext (by
    match a with | ⟨0, _⟩ => rfl | ⟨1, _⟩ => rfl | ⟨2, _⟩ => rfl)
  have er : ridx_main_v20 (ix3 b q d) k = ix3 b k d := funext fun a => Fin.ext (by
    match a with | ⟨0, _⟩ => rfl | ⟨1, _⟩ => rfl | ⟨2, _⟩ => rfl)
  rw [el, er, prob_v19, proj_v2]

end Cert.ReferenceIdeal.RefAttn

end
-- ==== Proof.lean ====
/-
  The certificate of a fused causal self-attention kernel against its reference.

  The kernel pads the three [64,768] head weights to 128 rows each, stacks them into one [384,768] operand, and at
  each of sixteen grid points takes two of the 32 sequences: it projects a sequence onto the stacked weights
  into a scratch buffer, and for each tile of 256 query rows forms the scaled scores against all 1024 keys over the
  128 padded coordinates, masks the keys after the query with −10⁹, takes the row softmax (maximum from −∞,
  exponentials, sum, quotient) and the weighted sum of the values, keeping the first 64 columns. The reference
  computes the same attention with unpadded 64-coordinate heads over the whole batch.

  On the extended reals the two agree entry by entry: a change of float format is the identity, each matrix product
  is the plain sum, the padded coordinates of a query row are zero so the padded products add nothing, the masks
  compare the same row and key numbers, and the softmax is the same expression. No finiteness of the inputs is used.
  `algebraic` states both runs' results as the one function `Cert.Attention.attn` of the arguments
  (Proof/Attention.lean); the kernel's side is Proof/KFinal.lean, the reference's Proof/RefAttention.lean. The frames
  of the kernel at both instances are Proof/KernelFrame.lean and Proof/KernelIdealFrame.lean; the reference's frame is
  its run with the result forgotten; the idealization rewrote nothing, so `preserves` is trivial.
-/
import proofs.«115010_j69922067579438_2_alg».proof.Defs
import proofs.«115010_j69922067579438_2_alg».proof.Proof.KernelFrame
import proofs.«115010_j69922067579438_2_alg».proof.Proof.KFinal
import proofs.«115010_j69922067579438_2_alg».proof.Proof.RefAttention
import proofs.«115010_j69922067579438_2_alg».proof.Proof.Gen.Kernel
import proofs.«115010_j69922067579438_2_alg».proof.Proof.Gen.KernelIdeal
import proofs.«115010_j69922067579438_2_alg».proof.Proof.Gen.ReferenceIdeal
import proofs.«115010_j69922067579438_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs, run from memories that agree on the arguments, end with the attention specification of
    those arguments in their result arrays. -/
theorem algebraic : Cert.algebraic_KernelIdeal_ReferenceIdeal := by
  intro m ρ m' ρ' _ hagree
  refine ⟨fun c => Cert.Attention.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Frm.run_attn ρ m, ?_⟩
  refine (θ_run Cert.ReferenceIdeal.defs _ _).mono (fun _ h c => ⟨?_, (h c).2⟩)
    (Cert.ReferenceIdeal.Value.run (F := Ideal) m' ρ')
  refine (h c).1.trans ((Cert.ReferenceIdeal.Read.val_main_v20_eq m' c).trans
    ((Cert.ReferenceIdeal.RefAttn.result_eq _ _ _ _).trans ?_))
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
